-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2048x784 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S320x784 : Shape := ⟨2, ![320, 784]⟩
abbrev S320 : Shape := ⟨1, ![320]⟩
abbrev S10x320 : Shape := ⟨2, ![10, 320]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S320x784 : S_.BroadcastsInDim S320x784 (![] : Fin 0 → Fin S320x784.rank)
  reducesTo_S320x784_S_d0_1 : S320x784.ReducesTo [0, 1] S_
  bcast_S_S320 : S_.BroadcastsInDim S320 (![] : Fin 0 → Fin S320.rank)
  reducesTo_S320_S_d0 : S320.ReducesTo [0] S_
  bcast_S_S10x320 : S_.BroadcastsInDim S10x320 (![] : Fin 0 → Fin S10x320.rank)
  reducesTo_S10x320_S_d0_1 : S10x320.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x320 1) : IVec S_ 1 :=
  let main_c_5 : IVec S_ 1 := constantI S_ 1 1#1
  let main_v17 : IVec S_ 1 := (fun x v => Host.reduce IntOp.andi x v reducesTo_S10x320_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S65536x784 .f32) (main_arg1 : FVec F S320x784 .f32) (main_arg2 : FVec F S320 .f32) (main_arg3 : FVec F S10x320 .f32) (main_arg4 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S320x784 .f32 := Host.absf main_arg1
  let main_cst_0 : FVec F S_ .f32 := constant S_ .f32 0x7F800000#32
  let main_v5 : FVec F S320x784 .f32 := broadcastInDim S320x784 ![] bcast_S_S320x784 main_cst_0
  let main_v6 : IVec S320x784 1 := cmpf .olt main_v4 main_v5
  let main_c_1 : IVec S_ 1 := constantI S_ 1 1#1
  let main_v7 : IVec S_ 1 := (fun x v => Host.reduce IntOp.andi x v reducesTo_S320x784_S_d0_1 h_S_) main_v6 main_c_1
  let main_v8 : IVec S_ 1 := andi main_v3 main_v7
  let main_v9 : FVec F S320 .f32 := Host.absf main_arg2
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_c_3 : IVec S_ 1 := constantI S_ 1 1#1
  let main_v12 : IVec S_ 1 := (fun x v => Host.reduce IntOp.andi x v reducesTo_S320_S_d0 h_S_) main_v11 main_c_3
  let main_v13 : IVec S_ 1 := andi main_v8 main_v12
  let main_v14 : FVec F S10x320 .f32 := Host.absf main_arg3
  let main_cst_4 : FVec F S_ .f32 := constant S_ .f32 0x7F800000#32
  let main_v15 : FVec F S10x320 .f32 := broadcastInDim S10x320 ![] bcast_S_S10x320 main_cst_4
  let main_v16 : IVec S10x320 1 := cmpf .olt main_v14 main_v15
  fn_part1 (F := F) main_arg4 main_v13 main_v16
-- ==== Kernel.lean ====
abbrev S65536x784 : Shape := ⟨2, ![65536, 784]⟩
abbrev S320x784 : Shape := ⟨2, ![320, 784]⟩
abbrev S320 : Shape := ⟨1, ![320]⟩
abbrev S10x320 : Shape := ⟨2, ![10, 320]⟩
abbrev S10 : Shape := ⟨1, ![10]⟩
abbrev S_ : Shape := ⟨0, ![]⟩
abbrev S1x320 : Shape := ⟨2, ![1, 320]⟩
abbrev S1x10 : Shape := ⟨2, ![1, 10]⟩
abbrev S65536x10 : Shape := ⟨2, ![65536, 10]⟩
abbrev S2048x784 : Shape := ⟨2, ![2048, 784]⟩
abbrev S2048x10 : Shape := ⟨2, ![2048, 10]⟩
abbrev S2048x320 : Shape := ⟨2, ![2048, 320]⟩
abbrev S2048 : Shape := ⟨1, ![2048]⟩
abbrev S2048x1 : Shape := ⟨2, ![2048, 1]⟩

abbrev nBuf : Space → Nat
  | .hbm => 54
  | .vmem => 8
  | .smem => 0
  | _ => 0

abbrev bufTy : (tb : Table) → Fin (tcTables nBuf tb) → BufTy
  | .hbm, ⟨0, _⟩ => ⟨S65536x784, .f32⟩
  | .hbm, ⟨1, _⟩ => ⟨S320x784, .f32⟩
  | .hbm, ⟨2, _⟩ => ⟨S320, .f32⟩
  | .hbm, ⟨3, _⟩ => ⟨S10x320, .f32⟩
  | .hbm, ⟨4, _⟩ => ⟨S10, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S320x784, .f32⟩
  | .hbm, ⟨9, _⟩ => ⟨S320x784, .f32⟩
  | .hbm, ⟨10, _⟩ => ⟨S_, .f32⟩
  | .hbm, ⟨11, _⟩ => ⟨S320x784, .f32⟩
  | .hbm, ⟨12, _⟩ => ⟨S320x784, .f32⟩
  | .hbm, ⟨13, _⟩ => ⟨S_, .f32⟩
  | .hbm, ⟨14, _⟩ => ⟨S320x784, .f32⟩
  | .hbm, ⟨15, _⟩ => ⟨S320x784, .i1⟩
  | .hbm, ⟨16, _⟩ => ⟨S_, .f32⟩
  | .hbm, ⟨17, _⟩ => ⟨S320x784, .f32⟩
  | .hbm, ⟨18, _⟩ => ⟨S320x784, .i1⟩
  | .hbm, ⟨19, _⟩ => ⟨S_, .f32⟩
  | .hbm, ⟨20, _⟩ => ⟨S_, .f32⟩
  | .hbm, ⟨21, _⟩ => ⟨S320x784, .f32⟩
  | .hbm, ⟨22, _⟩ => ⟨S320x784, .f32⟩
  | .hbm, ⟨23, _⟩ => ⟨S320x784, .f32⟩
  | .hbm, ⟨24, _⟩ => ⟨S_, .f32⟩
  | .hbm, ⟨25, _⟩ => ⟨S320x784, .f32⟩
  | .hbm, ⟨26, _⟩ => ⟨S320x784, .f32⟩
  | .hbm, ⟨27, _⟩ => ⟨S320x784, .bf16⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S10x320, .f32⟩
  | .hbm, ⟨32, _⟩ => ⟨S10x320, .f32⟩
  | .hbm, ⟨33, _⟩ => ⟨S_, .f32⟩
  | .hbm, ⟨34, _⟩ => ⟨S10x320, .f32⟩
  | .hbm, ⟨35, _⟩ => ⟨S10x320, .f32⟩
  | .hbm, ⟨36, _⟩ => ⟨S_, .f32⟩
  | .hbm, ⟨37, _⟩ => ⟨S10x320, .f32⟩
  | .hbm, ⟨38, _⟩ => ⟨S10x320, .i1⟩
  | .hbm, ⟨39, _⟩ => ⟨S_, .f32⟩
  | .hbm, ⟨40, _⟩ => ⟨S10x320, .f32⟩
  | .hbm, ⟨41, _⟩ => ⟨S10x320, .i1⟩
  | .hbm, ⟨42, _⟩ => ⟨S_, .f32⟩
  | .hbm, ⟨43, _⟩ => ⟨S_, .f32⟩
  | .hbm, ⟨44, _⟩ => ⟨S10x320, .f32⟩
  | .hbm, ⟨45, _⟩ => ⟨S10x320, .f32⟩
  | .hbm, ⟨46, _⟩ => ⟨S10x320, .f32⟩
  | .hbm, ⟨47, _⟩ => ⟨S_, .f32⟩
  | .hbm, ⟨48, _⟩ => ⟨S10x320, .f32⟩
  | .hbm, ⟨49, _⟩ => ⟨S10x320, .f32⟩
  | .hbm, ⟨50, _⟩ => ⟨S10x320, .bf16⟩
  | .hbm, ⟨51, _⟩ => ⟨S1x320, .f32⟩
  | .hbm, ⟨52, _⟩ => ⟨S1x10, .f32⟩
  | .hbm, ⟨53, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S320x784, .bf16⟩
  | .local _ .vmem, ⟨3, _⟩ => ⟨S1x320, .f32⟩
  | .local _ .vmem, ⟨4, _⟩ => ⟨S10x320, .bf16⟩
  | .local _ .vmem, ⟨5, _⟩ => ⟨S1x10, .f32⟩
  | .local _ .vmem, ⟨6, _⟩ => ⟨S2048x10, .f32⟩
  | .local _ .vmem, ⟨7, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v5 : Ref sig .tc := ⟨.hbm, 23, rfl⟩
abbrev main_cst_5 : Ref sig .tc := ⟨.hbm, 24, rfl⟩
abbrev main_call2_v0 : Ref sig .tc := ⟨.hbm, 25, rfl⟩
abbrev main_v6 : Ref sig .tc := ⟨.hbm, 26, rfl⟩
abbrev main_v7 : Ref sig .tc := ⟨.hbm, 27, rfl⟩
abbrev main_cst_6 : Ref sig .tc := ⟨.hbm, 28, rfl⟩
abbrev main_cst_7 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v8 : Ref sig .tc := ⟨.hbm, 35, rfl⟩
abbrev main_cst_8 : Ref sig .tc := ⟨.hbm, 36, rfl⟩
abbrev main_v9 : Ref sig .tc := ⟨.hbm, 37, rfl⟩
abbrev main_v10 : Ref sig .tc := ⟨.hbm, 38, rfl⟩
abbrev main_cst_9 : Ref sig .tc := ⟨.hbm, 39, rfl⟩
abbrev main_v11 : Ref sig .tc := ⟨.hbm, 40, rfl⟩
abbrev main_v12 : Ref sig .tc := ⟨.hbm, 41, rfl⟩
abbrev main_cst_10 : Ref sig .tc := ⟨.hbm, 42, rfl⟩
abbrev main_cst_11 : Ref sig .tc := ⟨.hbm, 43, rfl⟩
abbrev main_call4_v0 : Ref sig .tc := ⟨.hbm, 44, rfl⟩
abbrev main_call4_v1 : Ref sig .tc := ⟨.hbm, 45, rfl⟩
abbrev main_v13 : Ref sig .tc := ⟨.hbm, 46, rfl⟩
abbrev main_cst_12 : Ref sig .tc := ⟨.hbm, 47, rfl⟩
abbrev main_call5_v0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S320x784 : S_.BroadcastsInDim S320x784 (![] : Fin 0 → Fin S320x784.rank)
  bitsLt_bf16_f32 : FTy.bits .bf16 < FTy.bits .f32
  bcast_S_S10x320 : S_.BroadcastsInDim S10x320 (![] : Fin 0 → Fin S10x320.rank)
  shapeCasts_S320_S1x320 : S320.ShapeCasts S1x320
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  inb_S320x784_S320x784_0_0 : ∀ a, (![0, 0] : Fin 2 → Nat) a + S320x784.size a ≤ S320x784.size a
  h_S320x784 : 0 < S320x784.numel
  shapeCasts_S320x784_S320x784 : S320x784.ShapeCasts S320x784
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S2048x320 : S1x320.Broadcasts S2048x320
  inb_S10x320_S10x320_0_0 : ∀ a, (![0, 0] : Fin 2 → Nat) a + S10x320.size a ≤ S10x320.size a
  h_S10x320 : 0 < S10x320.numel
  shapeCasts_S10x320_S10x320 : S10x320.ShapeCasts S10x320
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x784_S320x784_S2048x320_1_1_0_0_n_n_wf : DotDims.WF S2048x784 S320x784 S2048x320 [1] [1] [0] [0] [] []
  dot_S2048x320_S10x320_S2048x10_1_1_0_0_n_n_wf : DotDims.WF S2048x320 S10x320 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x784.size a ≤ S320x784.size a
  hwx0_1 : ∀ i : grid0.Coords, EltTy.bits .bf16 = 32 ∨ (Rect.block (s := S320x784) S320x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x320.size a ≤ S1x320.size a
  hwx0_2 : ∀ i : grid0.Coords, EltTy.bits .f32 = 32 ∨ (Rect.block (s := S1x320) S1x320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x320.size a ≤ S10x320.size a
  hwx0_3 : ∀ i : grid0.Coords, EltTy.bits .bf16 = 32 ∨ (Rect.block (s := S10x320) S10x320.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x10.size a ≤ S65536x10.size a
  hwx0_5 : ∀ i : grid0.Coords, EltTy.bits .f32 = 32 ∨ (Rect.block (s := S65536x10) S2048x10.size (cc0_transform_5 i) (hinb0_5 i)).WholeWords (EltTy.packing .f32)

variable [Facts₀]

def dot_S2048x784_S320x784_S2048x320_1_1_0_0_n_n : DotDims S2048x784 S320x784 S2048x320 where
  lhsContracting := [1]
  rhsContracting := [1]
  lhsNonContracting := [0]
  rhsNonContracting := [0]
  lhsBatch := []
  rhsBatch := []
  wf := dot_S2048x784_S320x784_S2048x320_1_1_0_0_n_n_wf
def dot_S2048x320_S10x320_S2048x10_1_1_0_0_n_n : DotDims S2048x320 S10x320 S2048x10 where
  lhsContracting := [1]
  rhsContracting := [1]
  lhsNonContracting := [0]
  rhsNonContracting := [0]
  lhsBatch := []
  rhsBatch := []
  wf := dot_S2048x320_S10x320_S2048x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S320x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2048x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x784 : Shape := ⟨2, ![65536, 784]⟩
abbrev S320x784 : Shape := ⟨2, ![320, 784]⟩
abbrev S320 : Shape := ⟨1, ![320]⟩
abbrev S10x320 : Shape := ⟨2, ![10, 320]⟩
abbrev S10 : Shape := ⟨1, ![10]⟩
abbrev S_ : Shape := ⟨0, ![]⟩
abbrev S784x320 : Shape := ⟨2, ![784, 320]⟩
abbrev S65536x320 : Shape := ⟨2, ![65536, 320]⟩
abbrev S1x320 : Shape := ⟨2, ![1, 320]⟩
abbrev S320x10 : Shape := ⟨2, ![320, 10]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 91
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S320x784, .f32⟩
  | .hbm, ⟨2, _⟩ => ⟨S320, .f32⟩
  | .hbm, ⟨3, _⟩ => ⟨S10x320, .f32⟩
  | .hbm, ⟨4, _⟩ => ⟨S10, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S320x784, .f32⟩
  | .hbm, ⟨9, _⟩ => ⟨S320x784, .f32⟩
  | .hbm, ⟨10, _⟩ => ⟨S_, .f32⟩
  | .hbm, ⟨11, _⟩ => ⟨S320x784, .f32⟩
  | .hbm, ⟨12, _⟩ => ⟨S320x784, .f32⟩
  | .hbm, ⟨13, _⟩ => ⟨S_, .f32⟩
  | .hbm, ⟨14, _⟩ => ⟨S320x784, .f32⟩
  | .hbm, ⟨15, _⟩ => ⟨S320x784, .i1⟩
  | .hbm, ⟨16, _⟩ => ⟨S_, .f32⟩
  | .hbm, ⟨17, _⟩ => ⟨S320x784, .f32⟩
  | .hbm, ⟨18, _⟩ => ⟨S320x784, .i1⟩
  | .hbm, ⟨19, _⟩ => ⟨S_, .f32⟩
  | .hbm, ⟨20, _⟩ => ⟨S_, .f32⟩
  | .hbm, ⟨21, _⟩ => ⟨S320x784, .f32⟩
  | .hbm, ⟨22, _⟩ => ⟨S320x784, .f32⟩
  | .hbm, ⟨23, _⟩ => ⟨S320x784, .f32⟩
  | .hbm, ⟨24, _⟩ => ⟨S_, .f32⟩
  | .hbm, ⟨25, _⟩ => ⟨S320x784, .f32⟩
  | .hbm, ⟨26, _⟩ => ⟨S320x784, .f32⟩
  | .hbm, ⟨27, _⟩ => ⟨S320x784, .f32⟩
  | .hbm, ⟨28, _⟩ => ⟨S784x320, .f32⟩
  | .hbm, ⟨29, _⟩ => ⟨S65536x320, .f32⟩
  | .hbm, ⟨30, _⟩ => ⟨S1x320, .f32⟩
  | .hbm, ⟨31, _⟩ => ⟨S65536x320, .f32⟩
  | .hbm, ⟨32, _⟩ => ⟨S65536x320, .f32⟩
  | .hbm, ⟨33, _⟩ => ⟨S_, .f32⟩
  | .hbm, ⟨34, _⟩ => ⟨S65536x320, .f32⟩
  | .hbm, ⟨35, _⟩ => ⟨S65536x320, .i1⟩
  | .hbm, ⟨36, _⟩ => ⟨S_, .f32⟩
  | .hbm, ⟨37, _⟩ => ⟨S65536x320, .f32⟩
  | .hbm, ⟨38, _⟩ => ⟨S65536x320, .i1⟩
  | .hbm, ⟨39, _⟩ => ⟨S_, .f32⟩
  | .hbm, ⟨40, _⟩ => ⟨S_, .f32⟩
  | .hbm, ⟨41, _⟩ => ⟨S65536x320, .f32⟩
  | .hbm, ⟨42, _⟩ => ⟨S65536x320, .f32⟩
  | .hbm, ⟨43, _⟩ => ⟨S65536x320, .f32⟩
  | .hbm, ⟨44, _⟩ => ⟨S_, .f32⟩
  | .hbm, ⟨45, _⟩ => ⟨S65536x320, .f32⟩
  | .hbm, ⟨46, _⟩ => ⟨S65536x320, .f32⟩
  | .hbm, ⟨47, _⟩ => ⟨S65536x320, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S10x320, .f32⟩
  | .hbm, ⟨52, _⟩ => ⟨S10x320, .f32⟩
  | .hbm, ⟨53, _⟩ => ⟨S_, .f32⟩
  | .hbm, ⟨54, _⟩ => ⟨S10x320, .f32⟩
  | .hbm, ⟨55, _⟩ => ⟨S10x320, .f32⟩
  | .hbm, ⟨56, _⟩ => ⟨S_, .f32⟩
  | .hbm, ⟨57, _⟩ => ⟨S10x320, .f32⟩
  | .hbm, ⟨58, _⟩ => ⟨S10x320, .i1⟩
  | .hbm, ⟨59, _⟩ => ⟨S_, .f32⟩
  | .hbm, ⟨60, _⟩ => ⟨S10x320, .f32⟩
  | .hbm, ⟨61, _⟩ => ⟨S10x320, .i1⟩
  | .hbm, ⟨62, _⟩ => ⟨S_, .f32⟩
  | .hbm, ⟨63, _⟩ => ⟨S_, .f32⟩
  | .hbm, ⟨64, _⟩ => ⟨S10x320, .f32⟩
  | .hbm, ⟨65, _⟩ => ⟨S10x320, .f32⟩
  | .hbm, ⟨66, _⟩ => ⟨S10x320, .f32⟩
  | .hbm, ⟨67, _⟩ => ⟨S_, .f32⟩
  | .hbm, ⟨68, _⟩ => ⟨S10x320, .f32⟩
  | .hbm, ⟨69, _⟩ => ⟨S10x320, .f32⟩
  | .hbm, ⟨70, _⟩ => ⟨S10x320, .f32⟩
  | .hbm, ⟨71, _⟩ => ⟨S320x10, .f32⟩
  | .hbm, ⟨72, _⟩ => ⟨S65536x10, .f32⟩
  | .hbm, ⟨73, _⟩ => ⟨S1x10, .f32⟩
  | .hbm, ⟨74, _⟩ => ⟨S65536x10, .f32⟩
  | .hbm, ⟨75, _⟩ => ⟨S65536x10, .f32⟩
  | .hbm, ⟨76, _⟩ => ⟨S_, .f32⟩
  | .hbm, ⟨77, _⟩ => ⟨S65536, .f32⟩
  | .hbm, ⟨78, _⟩ => ⟨S_, .f32⟩
  | .hbm, ⟨79, _⟩ => ⟨S65536, .f32⟩
  | .hbm, ⟨80, _⟩ => ⟨S65536, .f32⟩
  | .hbm, ⟨81, _⟩ => ⟨S65536x1, .f32⟩
  | .hbm, ⟨82, _⟩ => ⟨S65536x10, .f32⟩
  | .hbm, ⟨83, _⟩ => ⟨S65536x10, .f32⟩
  | .hbm, ⟨84, _⟩ => ⟨S65536x10, .f32⟩
  | .hbm, ⟨85, _⟩ => ⟨S_, .f32⟩
  | .hbm, ⟨86, _⟩ => ⟨S65536, .f32⟩
  | .hbm, ⟨87, _⟩ => ⟨S65536x1, .f32⟩
  | .hbm, ⟨88, _⟩ => ⟨S65536x1, .f32⟩
  | .hbm, ⟨89, _⟩ => ⟨S65536x10, .f32⟩
  | .hbm, ⟨90, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v5 : Ref sig .tc := ⟨.hbm, 23, rfl⟩
abbrev main_cst_5 : Ref sig .tc := ⟨.hbm, 24, rfl⟩
abbrev main_call2_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_6 : Ref sig .tc := ⟨.hbm, 33, rfl⟩
abbrev main_v13 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_cst_8 : Ref sig .tc := ⟨.hbm, 39, rfl⟩
abbrev main_cst_9 : Ref sig .tc := ⟨.hbm, 40, rfl⟩
abbrev main_call3_v0 : Ref sig .tc := ⟨.hbm, 41, rfl⟩
abbrev main_call3_v1 : Ref sig .tc := ⟨.hbm, 42, rfl⟩
abbrev main_v17 : Ref sig .tc := ⟨.hbm, 43, rfl⟩
abbrev main_cst_10 : Ref sig .tc := ⟨.hbm, 44, rfl⟩
abbrev main_call4_v0 : Ref sig .tc := ⟨.hbm, 45, rfl⟩
abbrev main_v18 : Ref sig .tc := ⟨.hbm, 46, rfl⟩
abbrev main_v19 : Ref sig .tc := ⟨.hbm, 47, rfl⟩
abbrev main_cst_11 : Ref sig .tc := ⟨.hbm, 48, rfl⟩
abbrev main_cst_12 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v20 : Ref sig .tc := ⟨.hbm, 55, rfl⟩
abbrev main_cst_13 : Ref sig .tc := ⟨.hbm, 56, rfl⟩
abbrev main_v21 : Ref sig .tc := ⟨.hbm, 57, rfl⟩
abbrev main_v22 : Ref sig .tc := ⟨.hbm, 58, rfl⟩
abbrev main_cst_14 : Ref sig .tc := ⟨.hbm, 59, rfl⟩
abbrev main_v23 : Ref sig .tc := ⟨.hbm, 60, rfl⟩
abbrev main_v24 : Ref sig .tc := ⟨.hbm, 61, rfl⟩
abbrev main_cst_15 : Ref sig .tc := ⟨.hbm, 62, rfl⟩
abbrev main_cst_16 : Ref sig .tc := ⟨.hbm, 63, rfl⟩
abbrev main_call6_v0 : Ref sig .tc := ⟨.hbm, 64, rfl⟩
abbrev main_call6_v1 : Ref sig .tc := ⟨.hbm, 65, rfl⟩
abbrev main_v25 : Ref sig .tc := ⟨.hbm, 66, rfl⟩
abbrev main_cst_17 : Ref sig .tc := ⟨.hbm, 67, rfl⟩
abbrev main_call7_v0 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call8_cst : Ref sig .tc := ⟨.hbm, 76, rfl⟩
abbrev main_call8_v0 : Ref sig .tc := ⟨.hbm, 77, rfl⟩
abbrev main_call8_cst_0 : Ref sig .tc := ⟨.hbm, 78, rfl⟩
abbrev main_call8_v1 : Ref sig .tc := ⟨.hbm, 79, rfl⟩
abbrev main_call8_v2 : Ref sig .tc := ⟨.hbm, 80, rfl⟩
abbrev main_call8_v3 : Ref sig .tc := ⟨.hbm, 81, rfl⟩
abbrev main_call8_v4 : Ref sig .tc := ⟨.hbm, 82, rfl⟩
abbrev main_call8_v5 : Ref sig .tc := ⟨.hbm, 83, rfl⟩
abbrev main_call8_v6 : Ref sig .tc := ⟨.hbm, 84, rfl⟩
abbrev main_call8_cst_1 : Ref sig .tc := ⟨.hbm, 85, rfl⟩
abbrev main_call8_v7 : Ref sig .tc := ⟨.hbm, 86, rfl⟩
abbrev main_call8_v8 : Ref sig .tc := ⟨.hbm, 87, rfl⟩
abbrev main_call8_v9 : Ref sig .tc := ⟨.hbm, 88, rfl⟩
abbrev main_call8_v10 : Ref sig .tc := ⟨.hbm, 89, rfl⟩
abbrev main_v33 : Ref sig .tc := ⟨.hbm, 90, rfl⟩

abbrev nD : Nat := 1
abbrev τ : Topo := Topo.v7x

variable {F : FTy → Type} [FloatOps F]

class Facts₀ : Prop where
  bcast_S_S320x784 : S_.BroadcastsInDim S320x784 (![] : Fin 0 → Fin S320x784.rank)
  transposes_S320x784_S784x320_1_0 : S320x784.Transposes [1, 0] S784x320
  bcast_S320_S1x320_1 : S320.BroadcastsInDim S1x320 (![1] : Fin 1 → Fin S1x320.rank)
  bcast_S1x320_S65536x320_0_1 : S1x320.BroadcastsInDim S65536x320 (![0, 1] : Fin 2 → Fin S65536x320.rank)
  bcast_S_S65536x320 : S_.BroadcastsInDim S65536x320 (![] : Fin 0 → Fin S65536x320.rank)
  bcast_S_S10x320 : S_.BroadcastsInDim S10x320 (![] : Fin 0 → Fin S10x320.rank)
  transposes_S10x320_S320x10_1_0 : S10x320.Transposes [1, 0] S320x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x320_S65536x320_1_0_0_1_n_n_wf : DotDims.WF S65536x784 S784x320 S65536x320 [1] [0] [0] [1] [] []
  dot_S65536x320_S320x10_S65536x10_1_0_0_1_n_n_wf : DotDims.WF S65536x320 S320x10 S65536x10 [1] [0] [0] [1] [] []

variable [Facts₀]

def dot_S65536x784_S784x320_S65536x320_1_0_0_1_n_n : DotDims S65536x784 S784x320 S65536x320 where
  lhsContracting := [1]
  rhsContracting := [0]
  lhsNonContracting := [0]
  rhsNonContracting := [1]
  lhsBatch := []
  rhsBatch := []
  wf := dot_S65536x784_S784x320_S65536x320_1_0_0_1_n_n_wf
def dot_S65536x320_S320x10_S65536x10_1_0_0_1_n_n : DotDims S65536x320 S320x10 S65536x10 where
  lhsContracting := [1]
  rhsContracting := [0]
  lhsNonContracting := [0]
  rhsNonContracting := [1]
  lhsBatch := []
  rhsBatch := []
  wf := dot_S65536x320_S320x10_S65536x10_1_0_0_1_n_n_wf

class Facts : Prop extends Facts₀ where

variable [Facts]
-- ==== Proof.FiniteX.lean ====
/-
  Every entry of the first input is a real number.

  The precondition is the conjunction, over the five float inputs, of "every entry v has |v| < +∞", each
  conjunct a reduction by `and` over all axes of the entrywise comparison, and the five results joined by
  `and` from the left: ((((x ∧ w1) ∧ b1) ∧ w2) ∧ b2). Read at the one index of the rank-0 result, the
  conjunction being 1 makes its first conjunct 1; a reduction by `and` into one index that is 1 had a 1 at
  every entry; and at an entry the comparison reads max (x i) (-(x i)) < ⊤ on the extended reals, the pattern
  0x7F800000 denoting ⊤. Neither ⊥ nor ⊤ satisfies that strict bound (|±∞| = ⊤), so x i is a real.
-/
import proofs.«168160_j71167608094757_2_alg».proof.Pre_finite_inputs
import proofs.«168160_j71167608094757_2_alg».proof.Proof.Gen.Pre_finite_inputs
import Idealize.ShloMosaic.PureOps.Ideal
import Idealize.ShloMosaic.Lib.ReduceAll
import Idealize.ShloMosaic.Lib.ValueIdx

noncomputable section

namespace Cert.Mlp.Finite

open Idealize.ShloMosaic Cert.Pre_finite_inputs

/-- A shape of rank 0 has one index. -/
instance subsingleton_S_ : Subsingleton S_.Idx := ⟨fun a b => funext fun d => d.elim0⟩

/-- The f32 pattern 0x7F800000 (sign 0, exponent all ones, fraction 0) denotes +∞. -/
theorem inf_eq_top : Ideal.ofBits .f32 0x7F800000#32 = (⊤ : EReal) := by
  simp [Ideal.ofBits, Ideal.ieee]

/-- An extended real whose absolute value max v (-v) is strictly below ⊤ is a real:
    at ⊥ and at ⊤ the absolute value is ⊤ itself. -/
theorem real_of_abs_lt_top (v : EReal) (h : Ideal.cmp .olt (max v (-v)) ⊤ = 1#1) :
    ∃ r : ℝ, v = (r : EReal) := by
  have hlt : max v (-v) < ⊤ := by
    unfold Ideal.cmp at h
    by_contra hn
    simp [hn] at h
  induction v using EReal.rec with
  | bot => simp at hlt
  | coe r => exact ⟨r, rfl⟩
  | top => simp at hlt

/-- The precondition's first conjunct, read at an entry: every entry of the first input is a real. -/
theorem x_finite [Cert.Pre_finite_inputs.Facts]
    (x : FVec Ideal S65536x784 .f32) (w1 : FVec Ideal S320x784 .f32) (b1 : FVec Ideal S320 .f32)
    (w2 : FVec Ideal S10x320 .f32) (b2 : FVec Ideal S10 .f32)
    (h : Cert.Pre_finite_inputs.fn (F := Ideal) x w1 b1 w2 b2 = fun _ => 1#1) :
    ∀ i : S65536x784.Idx, ∃ r : ℝ, x i = (r : EReal) := by
  intro i
  -- the claim at the one index of the rank-0 result
  have e := congrFun h ValueIdx.ix0
  dsimp only [fn, fn_part1] at e
  -- the conjunction of five words, joined from the left
  simp only [andi, IntOp.andi_eq_one] at e
  obtain ⟨⟨⟨⟨h0, -⟩, -⟩, -⟩, -⟩ := e
  -- the reduction by `and` over all axes is 1: every entry of the comparison is 1
  have hi := Host.reduce_andi_all _ _ _ _ _ h0 i
  -- at entry i the comparison is |x i| < +∞ on the extended reals
  change Ideal.cmp .olt (max (x i) (-(x i))) (Ideal.ofBits .f32 0x7F800000#32) = 1#1 at hi
  rw [inf_eq_top] at hi
  exact real_of_abs_lt_top (x i) hi

end Cert.Mlp.Finite

end
-- ==== Proof.RowSpec.lean ====
/-
  The network as a function of ONE input row.  Both programs compute, for every row `r` of `x`,

    h_j   = T( Σ_k x[r,k] · Q1[j,k] + b1[j] )          (320 hidden units)
    l_n   = Σ_j h_j · Q2[n,j] + b2[n]                   (10 logits)
    out_n = (l_n − M) − log Σ_n' exp (l_n' − M),        M = max_n l_n   (log-softmax, shifted by the row maximum)

  where `T` is the dead-zone ternary map (1 above the threshold, −1 below its negative, 0 between) and the weight
  matrices are `Q = T ∘ clamp[-1,1]` of the float weights, entry by entry.  Everything is stated on the extended reals,
  with the float literals kept as the patterns both programs print (the same pattern on both sides is never evaluated).
-/
import Idealize.ShloMosaic.PureOps.Ideal
import Idealize.ShloMosaic.PureOps.Ideal.Laws
import Idealize.ShloMosaic.Lib.ValueIdx

noncomputable section

namespace Cert.Mlp

open Idealize.ShloMosaic

/-- Clamp to [-1, 1]: `min 1 (max (-1) v)`. -/
def clipS (v : EReal) : EReal :=
  min (Ideal.ofBits .f32 0x3F800000#32) (max (Ideal.ofBits .f32 0xBF800000#32) v)

/-- The dead-zone ternary map: `1` above the threshold, `-1` below its negative, `0` between. -/
def ternS (v : EReal) : EReal :=
  Scalar.select (Ideal.cmp .ogt v (Ideal.ofBits .f32 0x3A83126F#32)) (Ideal.ofBits .f32 0x3F800000#32)
    (Scalar.select (Ideal.cmp .olt v (Ideal.ofBits .f32 0xBA83126F#32)) (Ideal.ofBits .f32 0xBF800000#32)
      (Ideal.ofBits .f32 0x00000000#32))

/-- A quantized weight: the ternary map of the clamped float weight. -/
def wq (v : EReal) : EReal := ternS (clipS v)

/-- Hidden unit `j` of a row. -/
def hidS (q1 : Fin 320 → Fin 784 → EReal) (b1 : Fin 320 → EReal) (xr : Fin 784 → EReal) (j : Fin 320) : EReal :=
  ternS ((∑ k : Fin 784, xr k * q1 j k) + b1 j)

/-- Logit `n` of a row. -/
def logitS (q1 : Fin 320 → Fin 784 → EReal) (b1 : Fin 320 → EReal) (q2 : Fin 10 → Fin 320 → EReal) (b2 : Fin 10 → EReal)
    (xr : Fin 784 → EReal) (n : Fin 10) : EReal :=
  (∑ j : Fin 320, hidS q1 b1 xr j * q2 n j) + b2 n

/-- The maximum of ten values, folded from `-∞`'s pattern. -/
def rowMax (l : Fin 10 → EReal) : EReal :=
  (Finset.univ : Finset (Fin 10)).fold max (Ideal.ofBits .f32 0xFF800000#32) l

/-- Log-softmax of ten values, shifted by their maximum. -/
def lsmS (l : Fin 10 → EReal) (n : Fin 10) : EReal :=
  (l n - rowMax l) - Ideal.log (∑ n' : Fin 10, Ideal.exp (l n' - rowMax l))

/-- One output row as a function of the input row and the quantized weights. -/
def rowOut (q1 : Fin 320 → Fin 784 → EReal) (b1 : Fin 320 → EReal) (q2 : Fin 10 → Fin 320 → EReal) (b2 : Fin 10 → EReal)
    (xr : Fin 784 → EReal) (n : Fin 10) : EReal :=
  lsmS (logitS q1 b1 q2 b2 xr) n

/-- A fold of `max` is at least its start value, so taking `max` with the start value again changes nothing. -/
theorem max_start_fold {ι : Type} (s : Finset ι) (b : EReal) (f : ι → EReal) :
    max b (s.fold max b f) = s.fold max b f :=
  max_eq_right ((Finset.le_fold_max b).mpr (Or.inl le_rfl))

/-- On a row of real numbers the residual `x − x` is zero entry by entry, so the second product `Σ_k (x_k − x_k)·q_k`
    vanishes (a product with `0` is `0` on the extended reals, whatever the other factor) and adding it changes nothing.
    This is the one place finiteness of the input is used: `∞ − ∞` is not `0`. -/
theorem sum_add_residual (xr : Fin 784 → EReal) (q : Fin 784 → EReal) (hx : ∀ k, ∃ r : ℝ, xr k = (r : EReal)) :
    (∑ k : Fin 784, xr k * q k) + (∑ k : Fin 784, (xr k - xr k) * q k) = ∑ k : Fin 784, xr k * q k := by
  have hz : ∀ k : Fin 784, (xr k - xr k) * q k = 0 := by
    intro k
    obtain ⟨r, hr⟩ := hx k
    rw [hr, ← EReal.coe_sub, sub_self, EReal.coe_zero, zero_mul]
  rw [Finset.sum_congr rfl (fun k _ => hz k), Finset.sum_const_zero, add_zero]

end Cert.Mlp

end
-- ==== Proof.WholeSpec.lean ====
/-
  The whole result array as ONE function of the five argument arrays: entry (r, n) is `rowOut` of row `r` of `x` under the
  quantized weights.  Both programs' results are shown equal to it.
-/
import proofs.«168160_j71167608094757_2_alg».proof.Proof.RowSpec

noncomputable section

namespace Cert.Mlp

open Idealize.ShloMosaic Idealize.ShloMosaic.ValueIdx

/-- The result array, index by index. -/
def G (x : (⟨2, ![65536, 784]⟩ : Shape).Idx → EReal) (w1 : (⟨2, ![320, 784]⟩ : Shape).Idx → EReal) (b1 : (⟨1, ![320]⟩ : Shape).Idx → EReal)
    (w2 : (⟨2, ![10, 320]⟩ : Shape).Idx → EReal) (b2 : (⟨1, ![10]⟩ : Shape).Idx → EReal) : (⟨2, ![65536, 10]⟩ : Shape).Idx → EReal :=
  fun i => rowOut (fun j k => wq (w1 (ix2 j k))) (fun j => b1 (ix1 j)) (fun n j => wq (w2 (ix2 n j))) (fun n => b2 (ix1 n))
    (fun k => x (ix2 (i 0) k)) (i 1)

theorem G_apply (x : (⟨2, ![65536, 784]⟩ : Shape).Idx → EReal) (w1 : (⟨2, ![320, 784]⟩ : Shape).Idx → EReal) (b1 : (⟨1, ![320]⟩ : Shape).Idx → EReal)
    (w2 : (⟨2, ![10, 320]⟩ : Shape).Idx → EReal) (b2 : (⟨1, ![10]⟩ : Shape).Idx → EReal) (r : Fin 65536) (n : Fin 10) :
    G x w1 b1 w2 b2 (ix2 r n) = rowOut (fun j k => wq (w1 (ix2 j k))) (fun j => b1 (ix1 j)) (fun n j => wq (w2 (ix2 n j))) (fun n => b2 (ix1 n))
      (fun k => x (ix2 r k)) n := rfl

end Cert.Mlp

end
-- ==== Proof.KernelRow.lean ====
/-
  One grid point of the kernel, as a function of the blocks it loads: `P0` the [2048, 784] block of `x`, `P1` the
  quantized first weight matrix [320, 784], `P2` the first bias as a [1, 320] row, `P3` the quantized second weight matrix
  [10, 320], `P4` the second bias as a [1, 10] row.  The body's arithmetic (the generated payload) is restated as a
  composition of stages, and the block it leaves is read at (p, n): it is `rowOut` of row `p` of `P0`.
  The body computes the first product twice — once with `x`, once with the residual `x − x` — and adds them: on a row of
  real numbers the second product is zero (`sum_add_residual`), which is where the input's finiteness is used.  Both matrix
  products are sums over the contracted coordinate, a bias row is broadcast down the block, the row maximum is a fold of
  `max` from `-∞`'s pattern, the row sum a plain sum.
-/
import proofs.«168160_j71167608094757_2_alg».proof.Proof.Gen.KernelIdeal.Value
import proofs.«168160_j71167608094757_2_alg».proof.Proof.RowSpec
import Idealize.ShloMosaic.Lib.Pipeline.Value
import Idealize.ShloMosaic.Lib.ValueIdx
import Idealize.ShloMosaic.PureOps.Ideal.Laws

noncomputable section

namespace Cert.Mlp.Kern

open Cert.KernelIdeal Cert.KernelIdeal.Gen Idealize.ShloMosaic Idealize.ShloMosaic.ValueIdx Cert.Mlp

section Stages
variable {F : FTy → Type} [FloatOps F]

/-- The dead-zone ternary map over a [2048, 320] block, as the body spells it (scalar constants splatted). -/
def kTern (v : FVec F S2048x320 .f32) : FVec F S2048x320 .f32 :=
  select (cmpf .ogt v (broadcast S2048x320 (Scalar.ofBits .f32 0x3A83126F#32))) (broadcast S2048x320 (Scalar.ofBits .f32 0x3F800000#32))
    (select (cmpf .olt v (broadcast S2048x320 (Scalar.ofBits .f32 0xBA83126F#32))) (broadcast S2048x320 (Scalar.ofBits .f32 0xBF800000#32))
      (broadcast S2048x320 (Scalar.ofBits .f32 0x00000000#32)))

/-- The hidden layer's pre-activations: the product with `x`, plus the product with the residual `x − x`, plus the bias. -/
def kHpre (P0 : Vec F S2048x784 .f32) (P1 : Vec F S320x784 .bf16) (P2 : Vec F S1x320 .f32) : FVec F S2048x320 .f32 :=
  addf (addf (matmul dot_S2048x784_S320x784_S2048x320_1_1_0_0_n_n none (truncf .bf16 P0 bitsLt_bf16_f32) (shapeCast S320x784 P1 shapeCasts_S320x784_S320x784) (constant S2048x320 .f32 0x00000000#32))
             (matmul dot_S2048x784_S320x784_S2048x320_1_1_0_0_n_n none (truncf .bf16 (subf P0 P0) bitsLt_bf16_f32) (shapeCast S320x784 P1 shapeCasts_S320x784_S320x784) (constant S2048x320 .f32 0x00000000#32)))
       (broadcastTo S2048x320 (shapeCast S1x320 P2 shapeCasts_S1x320_S1x320) broadcasts_S1x320_S2048x320)

/-- The logits of the block's rows. -/
def kLogits (P0 : Vec F S2048x784 .f32) (P1 : Vec F S320x784 .bf16) (P2 : Vec F S1x320 .f32) (P3 : Vec F S10x320 .bf16) (P4 : Vec F S1x10 .f32) :
    FVec F S2048x10 .f32 :=
  addf (matmul dot_S2048x320_S10x320_S2048x10_1_1_0_0_n_n none (truncf .bf16 (kTern (kHpre P0 P1 P2)) bitsLt_bf16_f32) (shapeCast S10x320 P3 shapeCasts_S10x320_S10x320) (constant S2048x10 .f32 0x00000000#32))
       (broadcastTo S2048x10 (shapeCast S1x10 P4 shapeCasts_S1x10_S1x10) broadcasts_S1x10_S2048x10)

/-- Row values of a [2048, 10] block kept as a column and broadcast along the rows. -/
abbrev kAlong (v : FVec F S2048 .f32) : FVec F S2048x10 .f32 :=
  broadcastTo S2048x10 (shapeCast S2048x1 v shapeCasts_S2048_S2048x1) broadcasts_S2048x1_S2048x10

/-- The logits shifted by their row maximum. -/
def kShifted (l : FVec F S2048x10 .f32) : FVec F S2048x10 .f32 :=
  subf l (kAlong (multiReduction .maximumf [1] S2048 l 0xFF800000#32 reduces_S2048x10_S2048 (.inl rfl) rfl))

/-- The generated payload is these stages composed (its local definitions unfold to them). -/
theorem pay2_eq (P0 : Vec F S2048x784 .f32) (P1 : Vec F S320x784 .bf16) (P2 : Vec F S1x320 .f32) (P3 : Vec F S10x320 .bf16) (P4 : Vec F S1x10 .f32) :
    k0_pay2 P0 P1 P2 P3 P4 = kShifted (kLogits P0 P1 P2 P3 P4) := rfl

end Stages

/-! ## Read at an index, at the ideal instance -/

theorem kTern_apply (v : FVec Ideal S2048x320 .f32) (i : S2048x320.Idx) : kTern v i = ternS (v i) := rfl

/-- The matrix unit's product with record `dot_S2048x784_S320x784_S2048x320_1_1_0_0_n_n` into a zero accumulator, at row `p`, column `c`: both operands are
    contracted along their second axis, so it is the sum over `k` of `x[p,k] · y[c,k]`. -/
theorem mm1_apply (x : FVec Ideal S2048x784 .bf16) (y : FVec Ideal S320x784 .bf16) (p : Fin 2048) (c : Fin 320) :
    matmul dot_S2048x784_S320x784_S2048x320_1_1_0_0_n_n none x y (constant S2048x320 .f32 0x00000000#32) (ix2 p c) = ∑ k : Fin 784, x (ix2 p k) * y (ix2 c k) := by
  simp only [matmul]
  rw [Ideal.matmul_constant_zero_apply, ← Equiv.sum_comp (ValueIdx.contrEquiv1 dot_S2048x784_S320x784_S2048x320_1_1_0_0_n_n 784 rfl rfl).symm]
  refine Finset.sum_congr rfl fun k _ => ?_
  have hk := ValueIdx.contrEquiv1_symm_val dot_S2048x784_S320x784_S2048x320_1_1_0_0_n_n 784 rfl rfl k
  have el : dot_S2048x784_S320x784_S2048x320_1_1_0_0_n_n.lhsIdx (ix2 p c) ((ValueIdx.contrEquiv1 dot_S2048x784_S320x784_S2048x320_1_1_0_0_n_n 784 rfl rfl).symm k) = ix2 p k := funext fun a => Fin.ext (by
    match a with
    | ⟨0, _⟩ =>
      show (dot_S2048x784_S320x784_S2048x320_1_1_0_0_n_n.lhsIdx (ix2 p c) _ 0).val = p.val
      unfold DotDims.lhsIdx
      rw [dif_neg (show ¬(0 : Fin S2048x784.rank) ∈ dot_S2048x784_S320x784_S2048x320_1_1_0_0_n_n.lhsBatch by decide), dif_pos (show (0 : Fin S2048x784.rank) ∈ dot_S2048x784_S320x784_S2048x320_1_1_0_0_n_n.lhsNonContracting by decide)]
      rfl
    | ⟨1, _⟩ => exact (dot_S2048x784_S320x784_S2048x320_1_1_0_0_n_n.lhsIdx_val_of_single rfl _ _).trans hk)
  have er : dot_S2048x784_S320x784_S2048x320_1_1_0_0_n_n.rhsIdx (ix2 p c) ((ValueIdx.contrEquiv1 dot_S2048x784_S320x784_S2048x320_1_1_0_0_n_n 784 rfl rfl).symm k) = ix2 c k := funext fun a => Fin.ext (by
    match a with
    | ⟨0, _⟩ =>
      show (dot_S2048x784_S320x784_S2048x320_1_1_0_0_n_n.rhsIdx (ix2 p c) _ 0).val = c.val
      unfold DotDims.rhsIdx
      rw [dif_neg (show ¬(0 : Fin S320x784.rank) ∈ dot_S2048x784_S320x784_S2048x320_1_1_0_0_n_n.rhsBatch by decide), dif_pos (show (0 : Fin S320x784.rank) ∈ dot_S2048x784_S320x784_S2048x320_1_1_0_0_n_n.rhsNonContracting by decide)]
      rfl
    | ⟨1, _⟩ => exact (dot_S2048x784_S320x784_S2048x320_1_1_0_0_n_n.rhsIdx_val_of_single rfl _ _).trans hk)
  rw [el, er]

/-- The matrix unit's product with record `dot_S2048x320_S10x320_S2048x10_1_1_0_0_n_n` into a zero accumulator, at row `p`, column `c`: both operands are
    contracted along their second axis, so it is the sum over `k` of `x[p,k] · y[c,k]`. -/
theorem mm2_apply (x : FVec Ideal S2048x320 .bf16) (y : FVec Ideal S10x320 .bf16) (p : Fin 2048) (c : Fin 10) :
    matmul dot_S2048x320_S10x320_S2048x10_1_1_0_0_n_n none x y (constant S2048x10 .f32 0x00000000#32) (ix2 p c) = ∑ k : Fin 320, x (ix2 p k) * y (ix2 c k) := by
  simp only [matmul]
  rw [Ideal.matmul_constant_zero_apply, ← Equiv.sum_comp (ValueIdx.contrEquiv1 dot_S2048x320_S10x320_S2048x10_1_1_0_0_n_n 320 rfl rfl).symm]
  refine Finset.sum_congr rfl fun k _ => ?_
  have hk := ValueIdx.contrEquiv1_symm_val dot_S2048x320_S10x320_S2048x10_1_1_0_0_n_n 320 rfl rfl k
  have el : dot_S2048x320_S10x320_S2048x10_1_1_0_0_n_n.lhsIdx (ix2 p c) ((ValueIdx.contrEquiv1 dot_S2048x320_S10x320_S2048x10_1_1_0_0_n_n 320 rfl rfl).symm k) = ix2 p k := funext fun a => Fin.ext (by
    match a with
    | ⟨0, _⟩ =>
      show (dot_S2048x320_S10x320_S2048x10_1_1_0_0_n_n.lhsIdx (ix2 p c) _ 0).val = p.val
      unfold DotDims.lhsIdx
      rw [dif_neg (show ¬(0 : Fin S2048x320.rank) ∈ dot_S2048x320_S10x320_S2048x10_1_1_0_0_n_n.lhsBatch by decide), dif_pos (show (0 : Fin S2048x320.rank) ∈ dot_S2048x320_S10x320_S2048x10_1_1_0_0_n_n.lhsNonContracting by decide)]
      rfl
    | ⟨1, _⟩ => exact (dot_S2048x320_S10x320_S2048x10_1_1_0_0_n_n.lhsIdx_val_of_single rfl _ _).trans hk)
  have er : dot_S2048x320_S10x320_S2048x10_1_1_0_0_n_n.rhsIdx (ix2 p c) ((ValueIdx.contrEquiv1 dot_S2048x320_S10x320_S2048x10_1_1_0_0_n_n 320 rfl rfl).symm k) = ix2 c k := funext fun a => Fin.ext (by
    match a with
    | ⟨0, _⟩ =>
      show (dot_S2048x320_S10x320_S2048x10_1_1_0_0_n_n.rhsIdx (ix2 p c) _ 0).val = c.val
      unfold DotDims.rhsIdx
      rw [dif_neg (show ¬(0 : Fin S10x320.rank) ∈ dot_S2048x320_S10x320_S2048x10_1_1_0_0_n_n.rhsBatch by decide), dif_pos (show (0 : Fin S10x320.rank) ∈ dot_S2048x320_S10x320_S2048x10_1_1_0_0_n_n.rhsNonContracting by decide)]
      rfl
    | ⟨1, _⟩ => exact (dot_S2048x320_S10x320_S2048x10_1_1_0_0_n_n.rhsIdx_val_of_single rfl _ _).trans hk)
  rw [el, er]

/-- A [1, 320] row broadcast down a [2048, 320] block, at (p, j), is the row's entry `j`. -/
theorem biasRow1_apply (P2 : Vec Ideal S1x320 .f32) (p : Fin 2048) (j : Fin 320) :
    broadcastTo S2048x320 (shapeCast S1x320 P2 shapeCasts_S1x320_S1x320) broadcasts_S1x320_S2048x320 (ix2 p j) = P2 (ix2 (0 : Fin 1) j) := by
  rw [shapeCast_self]
  exact broadcastTo_apply P2 broadcasts_S1x320_S2048x320 (ix2 p j) (ix2 (0 : Fin 1) j) (fun a => match a with
    | ⟨0, _⟩ => by show 0 = if (1 : Nat) = 1 then 0 else p.val; rw [if_pos rfl]
    | ⟨1, _⟩ => by show j.val = if (320 : Nat) = 1 then 0 else j.val; rw [if_neg (by decide)])

theorem biasRow2_apply (P4 : Vec Ideal S1x10 .f32) (p : Fin 2048) (n : Fin 10) :
    broadcastTo S2048x10 (shapeCast S1x10 P4 shapeCasts_S1x10_S1x10) broadcasts_S1x10_S2048x10 (ix2 p n) = P4 (ix2 (0 : Fin 1) n) := by
  rw [shapeCast_self]
  exact broadcastTo_apply P4 broadcasts_S1x10_S2048x10 (ix2 p n) (ix2 (0 : Fin 1) n) (fun a => match a with
    | ⟨0, _⟩ => by show 0 = if (1 : Nat) = 1 then 0 else p.val; rw [if_pos rfl]
    | ⟨1, _⟩ => by show n.val = if (10 : Nat) = 1 then 0 else n.val; rw [if_neg (by decide)])

/-- Row values kept as a column and broadcast along the rows, at (p, n), are the value of row `p`. -/
theorem kAlong_apply (v : FVec Ideal S2048 .f32) (p : Fin 2048) (n : Fin 10) : kAlong v (ix2 p n) = v (ix1 p) := by
  unfold kAlong
  rw [broadcastTo_apply _ broadcasts_S2048x1_S2048x10 (ix2 p n) (ix2 p (0 : Fin 1)) (fun a => match a with
    | ⟨0, _⟩ => by show p.val = if (2048 : Nat) = 1 then 0 else p.val; rw [if_neg (by decide)]
    | ⟨1, _⟩ => by show 0 = if (1 : Nat) = 1 then 0 else n.val; rw [if_pos rfl])]
  exact shapeCast_apply v shapeCasts_S2048_S2048x1 (ix2 p (0 : Fin 1)) (ix1 p) (by
    rw [Shape.rowMajor_val_one, Shape.rowMajor_val_two]; show p.val = p.val * 1 + 0; omega)

/-- The coordinate inserted on the reduced axis of a [2048, 10] block: (p, n). -/
theorem lift_block (h : S2048x10.Reduces [1] S2048) (p : Fin 2048) (n : Fin 10) : h.lift (ix1 p) n = ix2 p n :=
  funext fun a => Fin.ext (by match a with | ⟨0, _⟩ => rfl | ⟨1, _⟩ => rfl)

/-- The lane maximum of row `p`: the fold of `max` from the accumulator's pattern over the row. -/
theorem kRowmax_apply (l : FVec Ideal S2048x10 .f32) (p : Fin 2048) :
    multiReduction .maximumf [1] S2048 l 0xFF800000#32 reduces_S2048x10_S2048 (.inl rfl) rfl (ix1 p) = rowMax (fun n => l (ix2 p n)) := by
  refine (Ideal.multiReduction_maximumf_single l 0xFF800000#32 reduces_S2048x10_S2048 (.inl rfl) rfl (ix1 p)).trans ?_
  unfold rowMax
  exact congrArg (fun f => (Finset.univ : Finset (Fin 10)).fold max _ f) (funext fun n => congrArg l (lift_block _ p n))

/-- The lane sum of row `p`. -/
theorem kRowsum_apply (e : FVec Ideal S2048x10 .f32) (p : Fin 2048) :
    multiReduction .add [1] S2048 e 0x00000000#32 reduces_S2048x10_S2048 (.inl rfl) rfl (ix1 p) = ∑ n : Fin 10, e (ix2 p n) := by
  refine (Ideal.multiReduction_add_single e 0x00000000#32 reduces_S2048x10_S2048 (.inl rfl) rfl (ix1 p)).trans ?_
  exact Finset.sum_congr rfl fun n _ => congrArg e (lift_block _ p n)

theorem kHpre_apply (P0 : Vec Ideal S2048x784 .f32) (P1 : Vec Ideal S320x784 .bf16) (P2 : Vec Ideal S1x320 .f32) (p : Fin 2048) (j : Fin 320)
    (hfin : ∀ k : Fin 784, ∃ r : ℝ, P0 (ix2 p k) = (r : EReal)) :
    kHpre P0 P1 P2 (ix2 p j) = (∑ k : Fin 784, P0 (ix2 p k) * P1 (ix2 j k)) + P2 (ix2 (0 : Fin 1) j) := by
  unfold kHpre
  rw [addf_apply, addf_apply, mm1_apply, mm1_apply, biasRow1_apply, shapeCast_self]
  refine congrArg (· + _) ?_
  exact sum_add_residual (fun k => P0 (ix2 p k)) (fun k => P1 (ix2 j k)) hfin

theorem kLogits_apply (P0 : Vec Ideal S2048x784 .f32) (P1 : Vec Ideal S320x784 .bf16) (P2 : Vec Ideal S1x320 .f32) (P3 : Vec Ideal S10x320 .bf16)
    (P4 : Vec Ideal S1x10 .f32) (p : Fin 2048) (n : Fin 10) (hfin : ∀ k : Fin 784, ∃ r : ℝ, P0 (ix2 p k) = (r : EReal)) :
    kLogits P0 P1 P2 P3 P4 (ix2 p n)
      = logitS (fun j k => P1 (ix2 j k)) (fun j => P2 (ix2 (0 : Fin 1) j)) (fun n j => P3 (ix2 n j)) (fun n => P4 (ix2 (0 : Fin 1) n))
          (fun k => P0 (ix2 p k)) n := by
  unfold kLogits logitS
  rw [addf_apply, mm2_apply, biasRow2_apply, shapeCast_self]
  refine congrArg (· + _) (Finset.sum_congr rfl fun j _ => ?_)
  show kTern (kHpre P0 P1 P2) (ix2 p j) * _ = _
  rw [kTern_apply, kHpre_apply P0 P1 P2 p j hfin]
  rfl

theorem kShifted_apply (l : FVec Ideal S2048x10 .f32) (p : Fin 2048) (n : Fin 10) :
    kShifted l (ix2 p n) = l (ix2 p n) - rowMax (fun n' => l (ix2 p n')) := by
  unfold kShifted
  rw [subf_apply, kAlong_apply, kRowmax_apply]

/-- THE BLOCK AT AN INDEX: row `p`, column `n` of what a grid point leaves is `rowOut` of row `p` of its `x` block —
    provided that row holds real numbers. -/
theorem block_apply (P0 : Vec Ideal S2048x784 .f32) (P1 : Vec Ideal S320x784 .bf16) (P2 : Vec Ideal S1x320 .f32) (P3 : Vec Ideal S10x320 .bf16)
    (P4 : Vec Ideal S1x10 .f32) (p : Fin 2048) (n : Fin 10) (hfin : ∀ k : Fin 784, ∃ r : ℝ, P0 (ix2 p k) = (r : EReal)) :
    Cert.KernelIdeal.Value.E5 (F := Ideal) P0 P1 P2 P3 P4 (ix2 p n)
      = rowOut (fun j k => P1 (ix2 j k)) (fun j => P2 (ix2 (0 : Fin 1) j)) (fun n j => P3 (ix2 n j)) (fun n => P4 (ix2 (0 : Fin 1) n))
          (fun k => P0 (ix2 p k)) n := by
  have e0 : Cert.KernelIdeal.Value.ix5_0 (ix2 p n) = ix2 p n := funext fun a => Fin.ext (by match a with | ⟨0, _⟩ => rfl | ⟨1, _⟩ => rfl)
  have e1 : Cert.KernelIdeal.Value.ix5_1 (ix2 p n) = ix1 p := funext fun a => Fin.ext (by match a with | ⟨0, _⟩ => rfl)
  show (k0_pay2 P0 P1 P2 P3 P4 (Cert.KernelIdeal.Value.ix5_0 (ix2 p n)))
      - Ideal.log (multiReduction .add [1] S2048 (exp (k0_pay2 P0 P1 P2 P3 P4)) 0x00000000#32 reduces_S2048x10_S2048 (.inl rfl) rfl (Cert.KernelIdeal.Value.ix5_1 (ix2 p n))) = _
  rw [e0, e1, pay2_eq, kRowsum_apply, kShifted_apply]
  unfold rowOut lsmS
  simp only [kLogits_apply P0 P1 P2 P3 P4 p _ hfin]
  refine congrArg (fun s => _ - Ideal.log s) (Finset.sum_congr rfl fun n' _ => ?_)
  show Ideal.exp (kShifted (kLogits P0 P1 P2 P3 P4) (ix2 p n')) = _
  rw [kShifted_apply]
  simp only [kLogits_apply P0 P1 P2 P3 P4 p _ hfin]

end Cert.Mlp.Kern

end
-- ==== Proof.RefTerm.lean ====
/-
  The reference program's result as ONE composed term of its five arguments (`refOut`, generic in the float
  instance: the program's host operations in order, the outlined clamp / select / log-softmax functions inlined), and
  that term read at an index at the ideal instance: row `r`, column `n` of the result is `rowOut` of row `r` of `x` and
  the quantized weights (`refOut_apply`).  The reading goes stage by stage: the pointwise stages hold by unfolding, a
  transpose swaps the two coordinates, a matrix product is the sum over the contracted coordinate, a bias is broadcast
  along the rows, the row maximum is a fold of `max` (and the extra `max` with the fold's own start is the identity),
  the row sum of exponentials is the start value `0` plus the sum.
-/
import proofs.«168160_j71167608094757_2_alg».proof.ReferenceIdeal
import proofs.«168160_j71167608094757_2_alg».proof.Proof.Gen.ReferenceIdeal
import proofs.«168160_j71167608094757_2_alg».proof.Proof.RowSpec
import Idealize.ShloMosaic.Lib.Pipeline.Value
import Idealize.ShloMosaic.Lib.ValueIdx
import Idealize.ShloMosaic.PureOps.Ideal.Laws
import Idealize.ShloMosaic.PureOps.Reduce

noncomputable section

namespace Cert.Mlp.Ref

open Cert.ReferenceIdeal Cert.ReferenceIdeal.Gen Idealize.ShloMosaic Idealize.ShloMosaic.ValueIdx Cert.Mlp

section Term
variable {F : FTy → Type} [FloatOps F]

/-- A scalar pattern broadcast to shape `s`. -/
abbrev splat (s : Shape) (h : S_.BroadcastsInDim s (![] : Fin 0 → Fin s.rank)) (b : BitVec 32) : FVec F s .f32 :=
  broadcastInDim s ![] h (constant S_ .f32 b)

/-- Clamp to [-1, 1], entry by entry. -/
def clipV (s : Shape) (h : S_.BroadcastsInDim s (![] : Fin 0 → Fin s.rank)) (v : FVec F s .f32) : FVec F s .f32 :=
  minimumf (splat s h 0x3F800000#32) (maximumf (splat s h 0xBF800000#32) v)

/-- The dead-zone ternary map, entry by entry. -/
def ternV (s : Shape) (h : S_.BroadcastsInDim s (![] : Fin 0 → Fin s.rank)) (v : FVec F s .f32) : FVec F s .f32 :=
  select (cmpf .ogt v (splat s h 0x3A83126F#32)) (splat s h 0x3F800000#32)
    (select (cmpf .olt v (splat s h 0xBA83126F#32)) (splat s h 0xBF800000#32) (splat s h 0x00000000#32))

/-- The pre-activations of the hidden layer: `x · Q1ᵀ + b1`. -/
def hpreV (x : FVec F S65536x784 .f32) (w1 : FVec F S320x784 .f32) (b1 : FVec F S320 .f32) : FVec F S65536x320 .f32 :=
  addf (Host.dotGeneral dot_S65536x784_S784x320_S65536x320_1_0_0_1_n_n none x
      (transpose S784x320 [1, 0] (ternV S320x784 bcast_S_S320x784 (clipV S320x784 bcast_S_S320x784 w1)) transposes_S320x784_S784x320_1_0))
    (broadcastInDim S65536x320 ![0, 1] bcast_S1x320_S65536x320_0_1 (broadcastInDim S1x320 ![1] bcast_S320_S1x320_1 b1))

/-- The logits: `T(hpre) · Q2ᵀ + b2`. -/
def logitsV (x : FVec F S65536x784 .f32) (w1 : FVec F S320x784 .f32) (b1 : FVec F S320 .f32) (w2 : FVec F S10x320 .f32)
    (b2 : FVec F S10 .f32) : FVec F S65536x10 .f32 :=
  addf (Host.dotGeneral dot_S65536x320_S320x10_S65536x10_1_0_0_1_n_n none (ternV S65536x320 bcast_S_S65536x320 (hpreV x w1 b1))
      (transpose S320x10 [1, 0] (ternV S10x320 bcast_S_S10x320 (clipV S10x320 bcast_S_S10x320 w2)) transposes_S10x320_S320x10_1_0))
    (broadcastInDim S65536x10 ![0, 1] bcast_S1x10_S65536x10_0_1 (broadcastInDim S1x10 ![1] bcast_S10_S1x10_1 b2))

/-- A column of row values broadcast along the rows of a [65536, 10] array. -/
abbrev alongRows (v : FVec F S65536x1 .f32) : FVec F S65536x10 .f32 :=
  broadcastInDim S65536x10 ![0, 1] bcast_S65536x1_S65536x10_0_1 v
/-- Row values as a column. -/
abbrev asColumn (v : FVec F S65536 .f32) : FVec F S65536x1 .f32 :=
  broadcastInDim S65536x1 ![0] bcast_S65536_S65536x1_0 v

/-- The logits shifted by their row maximum. -/
def shiftedV (l : FVec F S65536x10 .f32) : FVec F S65536x10 .f32 :=
  subf l (alongRows (asColumn (maximumf (broadcastInDim S65536 ![] bcast_S_S65536 (constant S_ .f32 0xFF800000#32))
    (Host.reduce FloatOps.maximumf l (constant S_ .f32 0xFF800000#32) reducesTo_S65536x10_S65536_d1 h_S_))))

/-- Log-softmax along the rows. -/
def lsmV (l : FVec F S65536x10 .f32) : FVec F S65536x10 .f32 :=
  subf (shiftedV l) (alongRows (Host.log (asColumn
    (Host.reduceAdd (Host.exp (shiftedV l)) (constant S_ .f32 0x00000000#32) reducesTo_S65536x10_S65536_d1 h_S_))))

/-- The reference's result as one term of its arguments. -/
def refOut (x : FVec F S65536x784 .f32) (w1 : FVec F S320x784 .f32) (b1 : FVec F S320 .f32) (w2 : FVec F S10x320 .f32)
    (b2 : FVec F S10 .f32) : FVec F S65536x10 .f32 :=
  lsmV (logitsV x w1 b1 w2 b2)

end Term

/-! ## Read at an index, at the ideal instance -/

theorem clipV_apply (s : Shape) (h : S_.BroadcastsInDim s (![] : Fin 0 → Fin s.rank)) (v : FVec Ideal s .f32) (i : s.Idx) :
    clipV s h v i = clipS (v i) := rfl

theorem ternV_apply (s : Shape) (h : S_.BroadcastsInDim s (![] : Fin 0 → Fin s.rank)) (v : FVec Ideal s .f32) (i : s.Idx) :
    ternV s h v i = ternS (v i) := rfl

/-- The host's matrix product with record `dot_S65536x784_S784x320_S65536x320_1_0_0_1_n_n` at row `r`, column `c`: the sum over the contracted coordinate. -/
theorem dot1_apply (x : FVec Ideal S65536x784 .f32) (y : FVec Ideal S784x320 .f32) (r : Fin 65536) (c : Fin 320) :
    Host.dotGeneral dot_S65536x784_S784x320_S65536x320_1_0_0_1_n_n none x y (ix2 r c) = ∑ k : Fin 784, x (ix2 r k) * y (ix2 k c) := by
  simp only [Host.dotGeneral]
  rw [Ideal.dotGeneral_apply, ← Equiv.sum_comp (ValueIdx.contrEquiv1 dot_S65536x784_S784x320_S65536x320_1_0_0_1_n_n 784 rfl rfl).symm]
  refine Finset.sum_congr rfl fun k _ => ?_
  have hk := ValueIdx.contrEquiv1_symm_val dot_S65536x784_S784x320_S65536x320_1_0_0_1_n_n 784 rfl rfl k
  have el : dot_S65536x784_S784x320_S65536x320_1_0_0_1_n_n.lhsIdx (ix2 r c) ((ValueIdx.contrEquiv1 dot_S65536x784_S784x320_S65536x320_1_0_0_1_n_n 784 rfl rfl).symm k) = ix2 r k := funext fun a => Fin.ext (by
    match a with
    | ⟨0, _⟩ =>
      show (dot_S65536x784_S784x320_S65536x320_1_0_0_1_n_n.lhsIdx (ix2 r c) _ 0).val = r.val
      unfold DotDims.lhsIdx
      rw [dif_neg (show ¬(0 : Fin S65536x784.rank) ∈ dot_S65536x784_S784x320_S65536x320_1_0_0_1_n_n.lhsBatch by decide), dif_pos (show (0 : Fin S65536x784.rank) ∈ dot_S65536x784_S784x320_S65536x320_1_0_0_1_n_n.lhsNonContracting by decide)]
      rfl
    | ⟨1, _⟩ => exact (dot_S65536x784_S784x320_S65536x320_1_0_0_1_n_n.lhsIdx_val_of_single rfl _ _).trans hk)
  have er : dot_S65536x784_S784x320_S65536x320_1_0_0_1_n_n.rhsIdx (ix2 r c) ((ValueIdx.contrEquiv1 dot_S65536x784_S784x320_S65536x320_1_0_0_1_n_n 784 rfl rfl).symm k) = ix2 k c := funext fun a => Fin.ext (by
    match a with
    | ⟨0, _⟩ => exact (dot_S65536x784_S784x320_S65536x320_1_0_0_1_n_n.rhsIdx_val_of_single rfl _ _).trans hk
    | ⟨1, _⟩ =>
      show (dot_S65536x784_S784x320_S65536x320_1_0_0_1_n_n.rhsIdx (ix2 r c) _ 1).val = c.val
      unfold DotDims.rhsIdx
      rw [dif_neg (show ¬(1 : Fin S784x320.rank) ∈ dot_S65536x784_S784x320_S65536x320_1_0_0_1_n_n.rhsBatch by decide), dif_pos (show (1 : Fin S784x320.rank) ∈ dot_S65536x784_S784x320_S65536x320_1_0_0_1_n_n.rhsNonContracting by decide)]
      rfl)
  rw [el, er]

/-- The host's matrix product with record `dot_S65536x320_S320x10_S65536x10_1_0_0_1_n_n` at row `r`, column `c`: the sum over the contracted coordinate. -/
theorem dot2_apply (x : FVec Ideal S65536x320 .f32) (y : FVec Ideal S320x10 .f32) (r : Fin 65536) (c : Fin 10) :
    Host.dotGeneral dot_S65536x320_S320x10_S65536x10_1_0_0_1_n_n none x y (ix2 r c) = ∑ k : Fin 320, x (ix2 r k) * y (ix2 k c) := by
  simp only [Host.dotGeneral]
  rw [Ideal.dotGeneral_apply, ← Equiv.sum_comp (ValueIdx.contrEquiv1 dot_S65536x320_S320x10_S65536x10_1_0_0_1_n_n 320 rfl rfl).symm]
  refine Finset.sum_congr rfl fun k _ => ?_
  have hk := ValueIdx.contrEquiv1_symm_val dot_S65536x320_S320x10_S65536x10_1_0_0_1_n_n 320 rfl rfl k
  have el : dot_S65536x320_S320x10_S65536x10_1_0_0_1_n_n.lhsIdx (ix2 r c) ((ValueIdx.contrEquiv1 dot_S65536x320_S320x10_S65536x10_1_0_0_1_n_n 320 rfl rfl).symm k) = ix2 r k := funext fun a => Fin.ext (by
    match a with
    | ⟨0, _⟩ =>
      show (dot_S65536x320_S320x10_S65536x10_1_0_0_1_n_n.lhsIdx (ix2 r c) _ 0).val = r.val
      unfold DotDims.lhsIdx
      rw [dif_neg (show ¬(0 : Fin S65536x320.rank) ∈ dot_S65536x320_S320x10_S65536x10_1_0_0_1_n_n.lhsBatch by decide), dif_pos (show (0 : Fin S65536x320.rank) ∈ dot_S65536x320_S320x10_S65536x10_1_0_0_1_n_n.lhsNonContracting by decide)]
      rfl
    | ⟨1, _⟩ => exact (dot_S65536x320_S320x10_S65536x10_1_0_0_1_n_n.lhsIdx_val_of_single rfl _ _).trans hk)
  have er : dot_S65536x320_S320x10_S65536x10_1_0_0_1_n_n.rhsIdx (ix2 r c) ((ValueIdx.contrEquiv1 dot_S65536x320_S320x10_S65536x10_1_0_0_1_n_n 320 rfl rfl).symm k) = ix2 k c := funext fun a => Fin.ext (by
    match a with
    | ⟨0, _⟩ => exact (dot_S65536x320_S320x10_S65536x10_1_0_0_1_n_n.rhsIdx_val_of_single rfl _ _).trans hk
    | ⟨1, _⟩ =>
      show (dot_S65536x320_S320x10_S65536x10_1_0_0_1_n_n.rhsIdx (ix2 r c) _ 1).val = c.val
      unfold DotDims.rhsIdx
      rw [dif_neg (show ¬(1 : Fin S320x10.rank) ∈ dot_S65536x320_S320x10_S65536x10_1_0_0_1_n_n.rhsBatch by decide), dif_pos (show (1 : Fin S320x10.rank) ∈ dot_S65536x320_S320x10_S65536x10_1_0_0_1_n_n.rhsNonContracting by decide)]
      rfl)
  rw [el, er]

/-- The transposed first weight matrix at (k, j) is the matrix at (j, k). -/
theorem transpose1_apply (y : FVec Ideal S320x784 .f32) (k : Fin 784) (j : Fin 320) :
    transpose S784x320 [1, 0] y transposes_S320x784_S784x320_1_0 (ix2 k j) = y (ix2 j k) :=
  transpose_apply [1, 0] y transposes_S320x784_S784x320_1_0 (ix2 k j) (ix2 j k) (fun b => match b with
    | ⟨0, _⟩ => rfl
    | ⟨1, _⟩ => rfl)

theorem transpose2_apply (y : FVec Ideal S10x320 .f32) (j : Fin 320) (n : Fin 10) :
    transpose S320x10 [1, 0] y transposes_S10x320_S320x10_1_0 (ix2 j n) = y (ix2 n j) :=
  transpose_apply [1, 0] y transposes_S10x320_S320x10_1_0 (ix2 j n) (ix2 n j) (fun b => match b with
    | ⟨0, _⟩ => rfl
    | ⟨1, _⟩ => rfl)

/-- The first bias, broadcast along the rows, at (r, j) is `b1 j`. -/
theorem bias1_apply (b1 : FVec Ideal S320 .f32) (r : Fin 65536) (j : Fin 320) :
    broadcastInDim S65536x320 ![0, 1] bcast_S1x320_S65536x320_0_1 (broadcastInDim S1x320 ![1] bcast_S320_S1x320_1 b1) (ix2 r j)
      = b1 (ix1 j) := by
  rw [broadcastInDim_apply _ bcast_S1x320_S65536x320_0_1 _ (ix2 r j) (ix2 (0 : Fin 1) j) (fun a => match a with
    | ⟨0, _⟩ => by show 0 = if (1 : Nat) = 1 then 0 else r.val; rw [if_pos rfl]
    | ⟨1, _⟩ => by show j.val = if (320 : Nat) = 1 then 0 else j.val; rw [if_neg (by decide)])]
  exact broadcastInDim_apply _ bcast_S320_S1x320_1 b1 (ix2 (0 : Fin 1) j) (ix1 j) (fun a => match a with
    | ⟨0, _⟩ => by show j.val = if (320 : Nat) = 1 then 0 else j.val; rw [if_neg (by decide)])

theorem bias2_apply (b2 : FVec Ideal S10 .f32) (r : Fin 65536) (n : Fin 10) :
    broadcastInDim S65536x10 ![0, 1] bcast_S1x10_S65536x10_0_1 (broadcastInDim S1x10 ![1] bcast_S10_S1x10_1 b2) (ix2 r n)
      = b2 (ix1 n) := by
  rw [broadcastInDim_apply _ bcast_S1x10_S65536x10_0_1 _ (ix2 r n) (ix2 (0 : Fin 1) n) (fun a => match a with
    | ⟨0, _⟩ => by show 0 = if (1 : Nat) = 1 then 0 else r.val; rw [if_pos rfl]
    | ⟨1, _⟩ => by show n.val = if (10 : Nat) = 1 then 0 else n.val; rw [if_neg (by decide)])]
  exact broadcastInDim_apply _ bcast_S10_S1x10_1 b2 (ix2 (0 : Fin 1) n) (ix1 n) (fun a => match a with
    | ⟨0, _⟩ => by show n.val = if (10 : Nat) = 1 then 0 else n.val; rw [if_neg (by decide)])

/-- Row values broadcast along the rows, at (r, n), are the value of row `r`. -/
theorem alongRows_asColumn_apply (v : FVec Ideal S65536 .f32) (r : Fin 65536) (n : Fin 10) :
    alongRows (asColumn v) (ix2 r n) = v (ix1 r) := by
  unfold alongRows asColumn
  rw [broadcastInDim_apply _ bcast_S65536x1_S65536x10_0_1 _ (ix2 r n) (ix2 r (0 : Fin 1)) (fun a => match a with
    | ⟨0, _⟩ => by show r.val = if (65536 : Nat) = 1 then 0 else r.val; rw [if_neg (by decide)]
    | ⟨1, _⟩ => by show 0 = if (1 : Nat) = 1 then 0 else n.val; rw [if_pos rfl])]
  exact broadcastInDim_apply _ bcast_S65536_S65536x1_0 v (ix2 r (0 : Fin 1)) (ix1 r) (fun a => match a with
    | ⟨0, _⟩ => by show r.val = if (65536 : Nat) = 1 then 0 else r.val; rw [if_neg (by decide)])

theorem alongRows_log_asColumn_apply (v : FVec Ideal S65536 .f32) (r : Fin 65536) (n : Fin 10) :
    alongRows (Host.log (asColumn v)) (ix2 r n) = Ideal.log (v (ix1 r)) := by
  unfold alongRows
  rw [broadcastInDim_apply _ bcast_S65536x1_S65536x10_0_1 _ (ix2 r n) (ix2 r (0 : Fin 1)) (fun a => match a with
    | ⟨0, _⟩ => by show r.val = if (65536 : Nat) = 1 then 0 else r.val; rw [if_neg (by decide)]
    | ⟨1, _⟩ => by show 0 = if (1 : Nat) = 1 then 0 else n.val; rw [if_pos rfl])]
  show Ideal.log (asColumn v (ix2 r (0 : Fin 1))) = _
  unfold asColumn
  rw [broadcastInDim_apply _ bcast_S65536_S65536x1_0 v (ix2 r (0 : Fin 1)) (ix1 r) (fun a => match a with
    | ⟨0, _⟩ => by show r.val = if (65536 : Nat) = 1 then 0 else r.val; rw [if_neg (by decide)])]

/-- The coordinate inserted on the reduced axis of a [65536, 10] array: (r, n). -/
theorem lift_rows (h : S65536x10.Reduces [1] S65536) (r : Fin 65536) (n : Fin 10) : h.lift (ix1 r) n = ix2 r n :=
  funext fun a => Fin.ext (by match a with | ⟨0, _⟩ => rfl | ⟨1, _⟩ => rfl)

/-- The host's row maximum at row `r`: the fold of `max` from the start value over the row. -/
theorem rowmax_apply (l : FVec Ideal S65536x10 .f32) (r : Fin 65536) :
    Host.reduce FloatOps.maximumf l (constant (F := Ideal) S_ .f32 0xFF800000#32) reducesTo_S65536x10_S65536_d1 h_S_ (ix1 r)
      = rowMax (fun n => l (ix2 r n)) := by
  rw [Host.reduce_eq_fold_single FloatOps.maximumf l _ reducesTo_S65536x10_S65536_d1 (by decide) h_S_ (ix1 r)]
  unfold rowMax
  refine congrArg (fun f => (Finset.univ : Finset (Fin 10)).fold max _ f) (funext fun n => ?_)
  exact congrArg l (lift_rows _ r n)

/-- The host's row sum at row `r`: the start value plus the sum over the row. -/
theorem rowsum_apply (e : FVec Ideal S65536x10 .f32) (r : Fin 65536) :
    Host.reduceAdd e (constant (F := Ideal) S_ .f32 0x00000000#32) reducesTo_S65536x10_S65536_d1 h_S_ (ix1 r)
      = ∑ n : Fin 10, e (ix2 r n) := by
  simp only [Host.reduceAdd, Ideal.hostReduceAdd_def]
  rw [Ideal.hostReduceAdd_single reducesTo_S65536x10_S65536_d1 (by decide)]
  show Ideal.ofBits .f32 0x00000000#32 + _ = _
  rw [Ideal.ofBits_zero_f32, zero_add]
  exact Finset.sum_congr rfl fun n _ => congrArg e (lift_rows _ r n)

/-- Quantized weights, as functions of two coordinates. -/
abbrev Q1 (w1 : FVec Ideal S320x784 .f32) : Fin 320 → Fin 784 → EReal := fun j k => wq (w1 (ix2 j k))
abbrev Q2 (w2 : FVec Ideal S10x320 .f32) : Fin 10 → Fin 320 → EReal := fun n j => wq (w2 (ix2 n j))

theorem hpreV_apply (x : FVec Ideal S65536x784 .f32) (w1 : FVec Ideal S320x784 .f32) (b1 : FVec Ideal S320 .f32) (r : Fin 65536) (j : Fin 320) :
    hpreV x w1 b1 (ix2 r j) = (∑ k : Fin 784, x (ix2 r k) * Q1 w1 j k) + b1 (ix1 j) := by
  unfold hpreV
  rw [addf_apply, dot1_apply, bias1_apply]
  refine congrArg (· + _) (Finset.sum_congr rfl fun k _ => ?_)
  rw [transpose1_apply]
  rfl

theorem logitsV_apply (x : FVec Ideal S65536x784 .f32) (w1 : FVec Ideal S320x784 .f32) (b1 : FVec Ideal S320 .f32)
    (w2 : FVec Ideal S10x320 .f32) (b2 : FVec Ideal S10 .f32) (r : Fin 65536) (n : Fin 10) :
    logitsV x w1 b1 w2 b2 (ix2 r n)
      = logitS (Q1 w1) (fun j => b1 (ix1 j)) (Q2 w2) (fun n => b2 (ix1 n)) (fun k => x (ix2 r k)) n := by
  unfold logitsV logitS
  rw [addf_apply, dot2_apply, bias2_apply]
  refine congrArg (· + _) (Finset.sum_congr rfl fun j _ => ?_)
  rw [transpose2_apply, ternV_apply, hpreV_apply]
  rfl

theorem shiftedV_apply (l : FVec Ideal S65536x10 .f32) (r : Fin 65536) (n : Fin 10) :
    shiftedV l (ix2 r n) = l (ix2 r n) - rowMax (fun n' => l (ix2 r n')) := by
  unfold shiftedV
  rw [subf_apply, alongRows_asColumn_apply, maximumf_apply, rowmax_apply]
  show _ - max (Ideal.ofBits .f32 0xFF800000#32) (rowMax _) = _
  unfold rowMax
  rw [max_start_fold]

/-- THE REFERENCE AT AN INDEX: row `r`, column `n` of its result is `rowOut` of row `r` of `x`. -/
theorem refOut_apply (x : FVec Ideal S65536x784 .f32) (w1 : FVec Ideal S320x784 .f32) (b1 : FVec Ideal S320 .f32)
    (w2 : FVec Ideal S10x320 .f32) (b2 : FVec Ideal S10 .f32) (r : Fin 65536) (n : Fin 10) :
    refOut x w1 b1 w2 b2 (ix2 r n)
      = rowOut (Q1 w1) (fun j => b1 (ix1 j)) (Q2 w2) (fun n => b2 (ix1 n)) (fun k => x (ix2 r k)) n := by
  unfold refOut lsmV rowOut lsmS
  rw [subf_apply, alongRows_log_asColumn_apply, rowsum_apply, shiftedV_apply]
  simp only [logitsV_apply]
  refine congrArg (fun s => _ - Ideal.log s) (Finset.sum_congr rfl fun n' _ => ?_)
  show Ideal.exp (shiftedV (F := Ideal) _ (ix2 r n')) = _
  rw [shiftedV_apply]
  simp only [logitsV_apply]

end Cert.Mlp.Ref

end
-- ==== Proof.HostPrefix.lean ====
/-
  What the kernel's region finds in the arrays its windows stage.  Before the region @main quantizes both weight
  matrices (clamp to [-1, 1], then the dead-zone ternary map, then a change of float format, which is the identity on the
  extended reals) and re-lays each bias vector as a one-row matrix.  So, entry by entry: the second window's array is
  `wq` of `w1`, the fourth's `wq` of `w2`, the third's row is `b1`, the fifth's row is `b2`, and the first window's array
  is `x` itself.
-/
import proofs.«168160_j71167608094757_2_alg».proof.Proof.Gen.KernelIdeal.Frame
import proofs.«168160_j71167608094757_2_alg».proof.Proof.RefTerm
import Idealize.ShloMosaic.Lib.StableHlo.Run
import Idealize.ShloMosaic.Lib.Pipeline.Value
import Idealize.ShloMosaic.Lib.ValueIdx

noncomputable section

namespace Cert.Mlp.Prefix

open Cert.KernelIdeal Cert.KernelIdeal.Gen Idealize.ShloMosaic Idealize.ShloMosaic.ValueIdx Idealize.ShloMosaic.TcCoe Idealize.SL.Sem Idealize.ShloMosaic.StableHlo Cert.Mlp

variable (m : (ℓ : Loc nD τ sig) → Buf (Elt Ideal) ℓ) (c : Dev nD)

set_option maxRecDepth 65536 in
/-- The quantized first weight matrix, as @main's operations before the region compose it. -/
theorem V_q1 : (V m c main_v7 : S320x784.Idx → EReal)
    = truncf .bf16 (Ref.ternV (F := Ideal) S320x784 bcast_S_S320x784 (Ref.clipV S320x784 bcast_S_S320x784 (m ((c : Thread nD τ).loc main_arg1)))) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [Ref.ternV, Ref.clipV, Ref.splat, id_eq, TRef.toBuf, TRef.ofBuf, cast_eq]
    <;> rfl

set_option maxRecDepth 65536 in
/-- The quantized second weight matrix. -/
theorem V_q2 : (V m c main_v15 : S10x320.Idx → EReal)
    = truncf .bf16 (Ref.ternV (F := Ideal) S10x320 bcast_S_S10x320 (Ref.clipV S10x320 bcast_S_S10x320 (m ((c : Thread nD τ).loc main_arg3)))) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [Ref.ternV, Ref.clipV, Ref.splat, id_eq, TRef.toBuf, TRef.ofBuf, cast_eq]
    <;> rfl

set_option maxRecDepth 65536 in
/-- The first bias re-laid as a [1, 320] row. -/
theorem V_b1 : (V m c main_v16 : S1x320.Idx → EReal) = shapeCast S1x320 (m ((c : Thread nD τ).loc main_arg2)) shapeCasts_S320_S1x320 := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxRecDepth 65536 in
/-- The second bias re-laid as a [1, 10] row. -/
theorem V_b2 : (V m c main_v17 : S1x10.Idx → EReal) = shapeCast S1x10 (m ((c : Thread nD τ).loc main_arg4)) shapeCasts_S10_S1x10 := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-! ## Entry by entry -/

theorem V_q1_apply (j : Fin 320) (k : Fin 784) :
    (V m c main_v7 : S320x784.Idx → EReal) (ix2 j k) = wq ((m ((c : Thread nD τ).loc main_arg1)) (ix2 j k)) := by
  rw [V_q1]; rfl

theorem V_q2_apply (n : Fin 10) (j : Fin 320) :
    (V m c main_v15 : S10x320.Idx → EReal) (ix2 n j) = wq ((m ((c : Thread nD τ).loc main_arg3)) (ix2 n j)) := by
  rw [V_q2]; rfl

theorem V_b1_apply (j : Fin 320) :
    (V m c main_v16 : S1x320.Idx → EReal) (ix2 (0 : Fin 1) j) = (m ((c : Thread nD τ).loc main_arg2)) (ix1 j) := by
  rw [V_b1]
  exact shapeCast_apply _ shapeCasts_S320_S1x320 (ix2 (0 : Fin 1) j) (ix1 j) (by
    rw [Shape.rowMajor_val_one, Shape.rowMajor_val_two]; show j.val = 0 * 320 + j.val; omega)

theorem V_b2_apply (n : Fin 10) :
    (V m c main_v17 : S1x10.Idx → EReal) (ix2 (0 : Fin 1) n) = (m ((c : Thread nD τ).loc main_arg4)) (ix1 n) := by
  rw [V_b2]
  exact shapeCast_apply _ shapeCasts_S10_S1x10 (ix2 (0 : Fin 1) n) (ix1 n) (by
    rw [Shape.rowMajor_val_one, Shape.rowMajor_val_two]; show n.val = 0 * 10 + n.val; omega)

end Cert.Mlp.Prefix

end
-- ==== Proof.Blocks.lean ====
/-
  From what each grid point writes back to the whole result array.  The grid has 32 points; point `t` stages rows
  2048·t … 2048·t + 2047 of `x` (all 784 columns), the four small arrays whole, and writes back rows 2048·t … 2048·t + 2047 of
  the result (all 10 columns).  A block's coordinate is always index × size + the coordinate inside the block.  Entry (p, n)
  of what point `t` writes back is `rowOut` of row `p` of its `x` block (module KernelRow), that is `G` at row 2048·t + p; the 32
  blocks cover every row (row `r` lies in the block of point `r / 2048`), so the array ends holding `G`.
-/
import proofs.«168160_j71167608094757_2_alg».proof.Proof.Gen.KernelIdeal.Value
import proofs.«168160_j71167608094757_2_alg».proof.Proof.KernelRow
import proofs.«168160_j71167608094757_2_alg».proof.Proof.HostPrefix
import proofs.«168160_j71167608094757_2_alg».proof.Proof.WholeSpec

noncomputable section

namespace Cert.Mlp.Blocks

open Cert.KernelIdeal Cert.KernelIdeal.Gen Idealize.ShloMosaic Idealize.ShloMosaic.ValueIdx Idealize.ShloMosaic.TcCoe Idealize.SL.Sem Cert.Mlp
open Idealize.ShloMosaic.Pipeline (Dat)

theorem hz : (![0, 0] : Fin 2 → Nat) = fun _ => 0 := funext fun a => by fin_cases a <;> rfl

/-- What the body leaves in the output block, at an index, from the blocks it loads (over variables): the whole-buffer
    loads read the blocks, the one covering store leaves the payload, and the payload at (p, n) is `rowOut` of row `p`. -/
theorem out_apply (x0 : Vec Ideal S2048x784 .f32) (x1 : Vec Ideal S320x784 .bf16) (x2 : Vec Ideal S1x320 .f32) (x3 : Vec Ideal S10x320 .bf16)
    (x4 : Vec Ideal S1x10 .f32) (y : S2048x10.Idx) (hfin : ∀ k : Fin 784, ∃ r : ℝ, x0 (ix2 (y 0) k) = (r : EReal)) :
    out0_5 x0 x1 x2 x3 x4 y
      = rowOut (fun j k => x1 (ix2 j k)) (fun j => x2 (ix2 (0 : Fin 1) j)) (fun n j => x3 (ix2 n j)) (fun n => x4 (ix2 (0 : Fin 1) n))
          (fun k => x0 (ix2 (y 0) k)) (y 1) := by
  obtain ⟨p, n, rfl⟩ : ∃ (p : Fin 2048) (n : Fin 10), y = ix2 p n := ⟨y 0, y 1, eq_ix2 y⟩
  unfold out0_5
  simp only [View.ld_unit_zero (S := S2048x784) hz, View.ld_unit_zero (S := S320x784) hz, View.ld_unit_zero (S := S1x320) hz,
    View.ld_unit_zero (S := S10x320) hz, View.ld_unit_zero (S := S1x10) hz]
  refine (Cert.KernelIdeal.Value.canon5_eq x0 x1 x2 x3 x4 (ix2 p n)).trans ?_
  exact Kern.block_apply x0 x1 x2 x3 x4 p n hfin

/-- The printed index maps, decided over the 32 grid points: the `x` window and the result window sit at block row `t`,
    block column 0; the four small windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (m : (ℓ : Loc nD τ sig) → Buf (Elt Ideal) ℓ) (ρ : Dev nD → PrngReg)

/-- The row of the whole array under row `p` of point `t`'s block. -/
abbrev rowOf (t : Fin cfg0.N) (p : Fin 2048) : Fin 65536 := ⟨t.val * 2048 + p.val, by have := t.isLt; have := p.isLt; have : cfg0.N = 32 := N_0; omega⟩

/-- The `x` block of point `t` at (p, k) is `x` at (2048·t + p, k). -/
theorem blk0_apply (c : Dev nD) (t : Fin cfg0.N) (p : Fin 2048) (k : Fin 784) :
    iblk m c 0 t (ix2 p k) = (m ((c : Thread nD τ).loc main_arg0)) (ix2 (rowOf t p) k) := by
  show V m c main_arg0 (((cfg0.win 0).blk t).view.emb (ix2 p k)) = _
  rw [V_main_arg0]
  obtain ⟨e00, e01, -⟩ := idx_facts t
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 784 + 1 * k.val = k.val; omega

/-- The second window's block (the whole quantized first weight matrix). -/
theorem blk1_apply (c : Dev nD) (t : Fin cfg0.N) (j : Fin 320) (k : Fin 784) :
    iblk m c 1 t (ix2 j k) = wq ((m ((c : Thread nD τ).loc main_arg1)) (ix2 j k)) := by
  show (V m c main_v7 : S320x784.Idx → EReal) (((cfg0.win 1).blk t).view.emb (ix2 j k)) = _
  obtain ⟨-, -, e10, e11, -⟩ := idx_facts t
  have e : ((cfg0.win 1).blk t).view.emb (ix2 j k) = ix2 j k := funext fun a => Fin.ext (by
    match a with
    | ⟨0, _⟩ => show win0_1.index t (0 : Fin 2) * 320 + 1 * j.val = j.val; omega
    | ⟨1, _⟩ => show win0_1.index t (1 : Fin 2) * 784 + 1 * k.val = k.val; omega)
  rw [e]
  exact Prefix.V_q1_apply m c j k

/-- The third window's block (the first bias as a row). -/
theorem blk2_apply (c : Dev nD) (t : Fin cfg0.N) (j : Fin 320) :
    iblk m c 2 t (ix2 (0 : Fin 1) j) = (m ((c : Thread nD τ).loc main_arg2)) (ix1 j) := by
  show (V m c main_v16 : S1x320.Idx → EReal) (((cfg0.win 2).blk t).view.emb (ix2 (0 : Fin 1) j)) = _
  obtain ⟨-, -, -, -, e20, e21, -⟩ := idx_facts t
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 320 + 1 * j.val = j.val; omega)
  rw [e]
  exact Prefix.V_b1_apply m c j

/-- The fourth window's block (the whole quantized second weight matrix). -/
theorem blk3_apply (c : Dev nD) (t : Fin cfg0.N) (n : Fin 10) (j : Fin 320) :
    iblk m c 3 t (ix2 n j) = wq ((m ((c : Thread nD τ).loc main_arg3)) (ix2 n j)) := by
  show (V m c main_v15 : S10x320.Idx → EReal) (((cfg0.win 3).blk t).view.emb (ix2 n j)) = _
  obtain ⟨-, -, -, -, -, -, e30, e31, -⟩ := idx_facts t
  have e : ((cfg0.win 3).blk t).view.emb (ix2 n j) = ix2 n j := funext fun a => Fin.ext (by
    match a with
    | ⟨0, _⟩ => show win0_3.index t (0 : Fin 2) * 10 + 1 * n.val = n.val; omega
    | ⟨1, _⟩ => show win0_3.index t (1 : Fin 2) * 320 + 1 * j.val = j.val; omega)
  rw [e]
  exact Prefix.V_q2_apply m c n j

/-- The fifth window's block (the second bias as a row). -/
theorem blk4_apply (c : Dev nD) (t : Fin cfg0.N) (n : Fin 10) :
    iblk m c 4 t (ix2 (0 : Fin 1) n) = (m ((c : Thread nD τ).loc main_arg4)) (ix1 n) := by
  show (V m c main_v17 : S1x10.Idx → EReal) (((cfg0.win 4).blk t).view.emb (ix2 (0 : Fin 1) n)) = _
  obtain ⟨-, -, -, -, -, -, -, -, e40, e41, -⟩ := idx_facts t
  have e : ((cfg0.win 4).blk t).view.emb (ix2 (0 : Fin 1) n) = ix2 (0 : Fin 1) n := funext fun a => Fin.ext (by
    match a with
    | ⟨0, _⟩ => show win0_4.index t (0 : Fin 2) * 1 + 1 * 0 = 0; omega
    | ⟨1, _⟩ => show win0_4.index t (1 : Fin 2) * 10 + 1 * n.val = n.val; omega)
  rw [e]
  exact Prefix.V_b2_apply m c n

/-- The result window's block of point `t` sits at rows 2048·t …: index (p, n) of the block is (2048·t + p, n) of the array. -/
theorem emb5 (t : Fin cfg0.N) (p : Fin 2048) (n : Fin 10) :
    ((cfg0.win 5).blk t).view.emb (ix2 p n) = ix2 (rowOf t p) n := by
  obtain ⟨-, -, -, -, -, -, -, -, -, -, e50, e51⟩ := idx_facts t
  exact funext fun a => Fin.ext (by
    match a with
    | ⟨0, _⟩ => show win0_5.index t (0 : Fin 2) * 2048 + 1 * p.val = t.val * 2048 + p.val; omega
    | ⟨1, _⟩ => show win0_5.index t (1 : Fin 2) * 10 + 1 * n.val = n.val; omega)

/-- WHAT POINT `t` WRITES BACK is block `t` of `G` of the argument arrays — when `x` holds real numbers. -/
theorem flushed_eq (c : Dev nD) (t : Fin cfg0.N) (hfin : ∀ i : S65536x784.Idx, ∃ r : ℝ, (m ((c : Thread nD τ).loc main_arg0)) i = (r : EReal)) :
    (dats m 0 c).flushed 5 t = ((cfg0.win 5).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5]
  funext y
  obtain ⟨p, n, rfl⟩ : ∃ (p : Fin 2048) (n : Fin 10), y = ix2 p n := ⟨y 0, y 1, eq_ix2 y⟩
  show out0_5 (iblk m c 0 t) (iblk m c 1 t) (iblk m c 2 t) (iblk m c 3 t) (iblk m c 4 t) (ix2 p n)
      = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p n))
  rw [emb5, G_apply]
  refine (out_apply (iblk m c 0 t) (iblk m c 1 t) (iblk m c 2 t) (iblk m c 3 t) (iblk m c 4 t) (ix2 p n) (fun k => ?_)).trans ?_
  · show ∃ r : ℝ, iblk m c 0 t (ix2 p k) = (r : EReal)
    rw [blk0_apply]
    exact hfin _
  · show rowOut (fun j k => iblk m c 1 t (ix2 j k)) (fun j => iblk m c 2 t (ix2 (0 : Fin 1) j)) (fun n j => iblk m c 3 t (ix2 n j))
        (fun n => iblk m c 4 t (ix2 (0 : Fin 1) n)) (fun k => iblk m c 0 t (ix2 p k)) n = _
    simp only [blk0_apply, blk1_apply, blk2_apply, blk3_apply, blk4_apply]

/-- An index of the result array is in point `t`'s block iff each coordinate is in the block's range on its axis. -/
theorem mem_blk (t : Fin cfg0.N) (i : S65536x10.Idx) :
    i ∈ ((cfg0.win 5).blk t).view.set ↔ ∀ a : Fin 2, win0_5.index t a * S2048x10.size a ≤ (i a).val ∧ (i a).val < win0_5.index t a * S2048x10.size a + S2048x10.size a := by
  show i ∈ ((View.whole main_v18).slice (win0_5.rect t)).set ↔ _
  rw [View.set_slice_whole, Rect.mem_set_unit]
  exact Iff.rfl

/-- Every block row is some point's (decided over the grid). -/
theorem idx_onto : ∀ q : Fin 32, ∃ t : Fin cfg0.N, win0_5.index t = ![q.val, 0] :=
  (by decide +kernel : ∀ q : Fin 32, ∃ t : Fin grid0.N, win0_5.index t = ![q.val, 0])

/-- The 32 blocks cover the array: row `r` is in the block of the point at block row `r / 2048`. -/
theorem cover (i : S65536x10.Idx) : ∃ t : Fin cfg0.N, (cfg0.win 5).flush t = true ∧ i ∈ ((cfg0.win 5).blk t).view.set := by
  have hi0 : (i 0).val < 65536 := (i 0).isLt
  have hi1 : (i 1).val < 10 := (i 1).isLt
  obtain ⟨t, ht⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 10 ≤ (i 1).val ∧ (i 1).val < win0_5.index t (1 : Fin 2) * 10 + 10; omega

/-- THE ARRAY after the run is `G` of the argument arrays. -/
theorem final (c : Dev nD) (hfin : ∀ i : S65536x784.Idx, ∃ r : ℝ, (m ((c : Thread nD τ).loc main_arg0)) i = (r : EReal)) :
    (dats m 0 c).arrAt 5 cfg0.N = G (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t hfin) cover

/-- The kernel's run re-posted: the result array at `G` of the arguments, the arguments unchanged — for an `x` of real numbers
    on every core. -/
theorem run (hfin : ∀ (c : Dev nD) (i : S65536x784.Idx), ∃ r : ℝ, (m ((c : Thread nD τ).loc main_arg0)) i = (r : EReal)) :
    θ_run defs (onTc (τ := τ) (main (F := Ideal))) ⟨m, fun _ => 0, ρ⟩ fun r => ∀ c : Dev nD,
      r.2.mem ((c : Thread nD τ).loc main_v18) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hfin c)), (h c).2⟩) (Cert.KernelIdeal.Value.run_blocks m ρ)

end Cert.Mlp.Blocks

end
-- ==== Proof.RefOps.lean ====
/-
  The reference program's @main as a straight line of 86 host operations (the outlined clamp, select and log-softmax
  functions stand inlined at their calls, over each call's own buffers), and its run: every weakly fair execution
  terminates, and each buffer then holds the fold of the operations' results over the launch contents.
-/
import proofs.«168160_j71167608094757_2_alg».proof.Proof.Gen.ReferenceIdeal
import Idealize.ShloMosaic.Lib.StableHlo.Run

noncomputable section

namespace Cert.Mlp.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 86 operations, in order. -/
abbrev ops : List (HloOp τ sig (Elt F)) :=
  [ nullary main_cst (constant S_ .f32 0xBF800000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S320x784, .f32⟩) main_call0_v1) (broadcastInDim S320x784 ![] bcast_S_S320x784),
    TRef.binary (TRef.of (T := ⟨S320x784, .f32⟩) main_call0_v1) (TRef.of (T := ⟨S320x784, .f32⟩) main_arg1) (TRef.of (T := ⟨S320x784, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S320x784, .f32⟩) main_call0_v4) (broadcastInDim S320x784 ![] bcast_S_S320x784),
    TRef.binary (TRef.of (T := ⟨S320x784, .f32⟩) main_call0_v4) (TRef.of (T := ⟨S320x784, .f32⟩) main_call0_v2) (TRef.of (T := ⟨S320x784, .f32⟩) main_v0) minimumf,
    nullary main_cst_1 (constant S_ .f32 0x3A83126F#32),
    unary main_cst_1 main_v1 (broadcastInDim S320x784 ![] bcast_S_S320x784 : (⟨S_, .f32⟩ : BufTy).Contents (Elt F) → (⟨S320x784, .f32⟩ : BufTy).Contents (Elt F)),
    binary main_v0 main_v1 main_v2 (cmpf .ogt : (⟨S320x784, .f32⟩ : BufTy).Contents (Elt F) → (⟨S320x784, .f32⟩ : BufTy).Contents (Elt F) → (⟨S320x784, .i1⟩ : BufTy).Contents (Elt F)),
    nullary main_cst_2 (constant S_ .f32 0xBA83126F#32),
    unary main_cst_2 main_v3 (broadcastInDim S320x784 ![] bcast_S_S320x784 : (⟨S_, .f32⟩ : BufTy).Contents (Elt F) → (⟨S320x784, .f32⟩ : BufTy).Contents (Elt F)),
    binary main_v0 main_v3 main_v4 (cmpf .olt : (⟨S320x784, .f32⟩ : BufTy).Contents (Elt F) → (⟨S320x784, .f32⟩ : BufTy).Contents (Elt F) → (⟨S320x784, .i1⟩ : BufTy).Contents (Elt F)),
    nullary main_cst_3 (constant S_ .f32 0xBF800000#32),
    nullary main_cst_4 (constant S_ .f32 0x00000000#32),
    TRef.unary (TRef.of (T := ⟨S_, .f32⟩) main_cst_3) (TRef.of (T := ⟨S320x784, .f32⟩) main_call1_v0) (broadcastInDim S320x784 ![] bcast_S_S320x784),
    TRef.unary (TRef.of (T := ⟨S_, .f32⟩) main_cst_4) (TRef.of (T := ⟨S320x784, .f32⟩) main_call1_v1) (broadcastInDim S320x784 ![] bcast_S_S320x784),
    TRef.ternary (TRef.of (T := ⟨S320x784, .i1⟩) main_v4) (TRef.of (T := ⟨S320x784, .f32⟩) main_call1_v0) (TRef.of (T := ⟨S320x784, .f32⟩) main_call1_v1) (TRef.of (T := ⟨S320x784, .f32⟩) main_v5) select,
    nullary main_cst_5 (constant S_ .f32 0x3F800000#32),
    TRef.unary (TRef.of (T := ⟨S_, .f32⟩) main_cst_5) (TRef.of (T := ⟨S320x784, .f32⟩) main_call2_v0) (broadcastInDim S320x784 ![] bcast_S_S320x784),
    TRef.ternary (TRef.of (T := ⟨S320x784, .i1⟩) main_v2) (TRef.of (T := ⟨S320x784, .f32⟩) main_call2_v0) (TRef.of (T := ⟨S320x784, .f32⟩) main_v5) (TRef.of (T := ⟨S320x784, .f32⟩) main_v6) select,
    unary main_v6 main_v7 (id : (⟨S320x784, .f32⟩ : BufTy).Contents (Elt F) → (⟨S320x784, .f32⟩ : BufTy).Contents (Elt F)),
    unary main_v7 main_v8 ((transpose S784x320 [1, 0] · transposes_S320x784_S784x320_1_0) : (⟨S320x784, .f32⟩ : BufTy).Contents (Elt F) → (⟨S784x320, .f32⟩ : BufTy).Contents (Elt F)),
    binary main_arg0 main_v8 main_v9 ((fun l r => Host.dotGeneral dot_S65536x784_S784x320_S65536x320_1_0_0_1_n_n none l r) : (⟨S65536x784, .f32⟩ : BufTy).Contents (Elt F) → (⟨S784x320, .f32⟩ : BufTy).Contents (Elt F) → (⟨S65536x320, .f32⟩ : BufTy).Contents (Elt F)),
    unary main_arg2 main_v10 (broadcastInDim S1x320 ![1] bcast_S320_S1x320_1 : (⟨S320, .f32⟩ : BufTy).Contents (Elt F) → (⟨S1x320, .f32⟩ : BufTy).Contents (Elt F)),
    unary main_v10 main_v11 (broadcastInDim S65536x320 ![0, 1] bcast_S1x320_S65536x320_0_1 : (⟨S1x320, .f32⟩ : BufTy).Contents (Elt F) → (⟨S65536x320, .f32⟩ : BufTy).Contents (Elt F)),
    binary main_v9 main_v11 main_v12 (addf : (⟨S65536x320, .f32⟩ : BufTy).Contents (Elt F) → (⟨S65536x320, .f32⟩ : BufTy).Contents (Elt F) → (⟨S65536x320, .f32⟩ : BufTy).Contents (Elt F)),
    nullary main_cst_6 (constant S_ .f32 0x3A83126F#32),
    unary main_cst_6 main_v13 (broadcastInDim S65536x320 ![] bcast_S_S65536x320 : (⟨S_, .f32⟩ : BufTy).Contents (Elt F) → (⟨S65536x320, .f32⟩ : BufTy).Contents (Elt F)),
    binary main_v12 main_v13 main_v14 (cmpf .ogt : (⟨S65536x320, .f32⟩ : BufTy).Contents (Elt F) → (⟨S65536x320, .f32⟩ : BufTy).Contents (Elt F) → (⟨S65536x320, .i1⟩ : BufTy).Contents (Elt F)),
    nullary main_cst_7 (constant S_ .f32 0xBA83126F#32),
    unary main_cst_7 main_v15 (broadcastInDim S65536x320 ![] bcast_S_S65536x320 : (⟨S_, .f32⟩ : BufTy).Contents (Elt F) → (⟨S65536x320, .f32⟩ : BufTy).Contents (Elt F)),
    binary main_v12 main_v15 main_v16 (cmpf .olt : (⟨S65536x320, .f32⟩ : BufTy).Contents (Elt F) → (⟨S65536x320, .f32⟩ : BufTy).Contents (Elt F) → (⟨S65536x320, .i1⟩ : BufTy).Contents (Elt F)),
    nullary main_cst_8 (constant S_ .f32 0xBF800000#32),
    nullary main_cst_9 (constant S_ .f32 0x00000000#32),
    TRef.unary (TRef.of (T := ⟨S_, .f32⟩) main_cst_8) (TRef.of (T := ⟨S65536x320, .f32⟩) main_call3_v0) (broadcastInDim S65536x320 ![] bcast_S_S65536x320),
    TRef.unary (TRef.of (T := ⟨S_, .f32⟩) main_cst_9) (TRef.of (T := ⟨S65536x320, .f32⟩) main_call3_v1) (broadcastInDim S65536x320 ![] bcast_S_S65536x320),
    TRef.ternary (TRef.of (T := ⟨S65536x320, .i1⟩) main_v16) (TRef.of (T := ⟨S65536x320, .f32⟩) main_call3_v0) (TRef.of (T := ⟨S65536x320, .f32⟩) main_call3_v1) (TRef.of (T := ⟨S65536x320, .f32⟩) main_v17) select,
    nullary main_cst_10 (constant S_ .f32 0x3F800000#32),
    TRef.unary (TRef.of (T := ⟨S_, .f32⟩) main_cst_10) (TRef.of (T := ⟨S65536x320, .f32⟩) main_call4_v0) (broadcastInDim S65536x320 ![] bcast_S_S65536x320),
    TRef.ternary (TRef.of (T := ⟨S65536x320, .i1⟩) main_v14) (TRef.of (T := ⟨S65536x320, .f32⟩) main_call4_v0) (TRef.of (T := ⟨S65536x320, .f32⟩) main_v17) (TRef.of (T := ⟨S65536x320, .f32⟩) main_v18) select,
    unary main_v18 main_v19 (id : (⟨S65536x320, .f32⟩ : BufTy).Contents (Elt F) → (⟨S65536x320, .f32⟩ : BufTy).Contents (Elt F)),
    nullary main_cst_11 (constant S_ .f32 0xBF800000#32),
    nullary main_cst_12 (constant S_ .f32 0x3F800000#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S10x320, .f32⟩) main_call5_v1) (broadcastInDim S10x320 ![] bcast_S_S10x320),
    TRef.binary (TRef.of (T := ⟨S10x320, .f32⟩) main_call5_v1) (TRef.of (T := ⟨S10x320, .f32⟩) main_arg3) (TRef.of (T := ⟨S10x320, .f32⟩) main_call5_v2) maximumf,
    TRef.unary (TRef.of (T := ⟨S_, .f32⟩) main_cst_12) (TRef.of (T := ⟨S_, .f32⟩) main_call5_v3) id,
    TRef.unary (TRef.of (T := ⟨S_, .f32⟩) main_call5_v3) (TRef.of (T := ⟨S10x320, .f32⟩) main_call5_v4) (broadcastInDim S10x320 ![] bcast_S_S10x320),
    TRef.binary (TRef.of (T := ⟨S10x320, .f32⟩) main_call5_v4) (TRef.of (T := ⟨S10x320, .f32⟩) main_call5_v2) (TRef.of (T := ⟨S10x320, .f32⟩) main_v20) minimumf,
    nullary main_cst_13 (constant S_ .f32 0x3A83126F#32),
    unary main_cst_13 main_v21 (broadcastInDim S10x320 ![] bcast_S_S10x320 : (⟨S_, .f32⟩ : BufTy).Contents (Elt F) → (⟨S10x320, .f32⟩ : BufTy).Contents (Elt F)),
    binary main_v20 main_v21 main_v22 (cmpf .ogt : (⟨S10x320, .f32⟩ : BufTy).Contents (Elt F) → (⟨S10x320, .f32⟩ : BufTy).Contents (Elt F) → (⟨S10x320, .i1⟩ : BufTy).Contents (Elt F)),
    nullary main_cst_14 (constant S_ .f32 0xBA83126F#32),
    unary main_cst_14 main_v23 (broadcastInDim S10x320 ![] bcast_S_S10x320 : (⟨S_, .f32⟩ : BufTy).Contents (Elt F) → (⟨S10x320, .f32⟩ : BufTy).Contents (Elt F)),
    binary main_v20 main_v23 main_v24 (cmpf .olt : (⟨S10x320, .f32⟩ : BufTy).Contents (Elt F) → (⟨S10x320, .f32⟩ : BufTy).Contents (Elt F) → (⟨S10x320, .i1⟩ : BufTy).Contents (Elt F)),
    nullary main_cst_15 (constant S_ .f32 0xBF800000#32),
    nullary main_cst_16 (constant S_ .f32 0x00000000#32),
    TRef.unary (TRef.of (T := ⟨S_, .f32⟩) main_cst_15) (TRef.of (T := ⟨S10x320, .f32⟩) main_call6_v0) (broadcastInDim S10x320 ![] bcast_S_S10x320),
    TRef.unary (TRef.of (T := ⟨S_, .f32⟩) main_cst_16) (TRef.of (T := ⟨S10x320, .f32⟩) main_call6_v1) (broadcastInDim S10x320 ![] bcast_S_S10x320),
    TRef.ternary (TRef.of (T := ⟨S10x320, .i1⟩) main_v24) (TRef.of (T := ⟨S10x320, .f32⟩) main_call6_v0) (TRef.of (T := ⟨S10x320, .f32⟩) main_call6_v1) (TRef.of (T := ⟨S10x320, .f32⟩) main_v25) select,
    nullary main_cst_17 (constant S_ .f32 0x3F800000#32),
    TRef.unary (TRef.of (T := ⟨S_, .f32⟩) main_cst_17) (TRef.of (T := ⟨S10x320, .f32⟩) main_call7_v0) (broadcastInDim S10x320 ![] bcast_S_S10x320),
    TRef.ternary (TRef.of (T := ⟨S10x320, .i1⟩) main_v22) (TRef.of (T := ⟨S10x320, .f32⟩) main_call7_v0) (TRef.of (T := ⟨S10x320, .f32⟩) main_v25) (TRef.of (T := ⟨S10x320, .f32⟩) main_v26) select,
    unary main_v26 main_v27 (id : (⟨S10x320, .f32⟩ : BufTy).Contents (Elt F) → (⟨S10x320, .f32⟩ : BufTy).Contents (Elt F)),
    unary main_v27 main_v28 ((transpose S320x10 [1, 0] · transposes_S10x320_S320x10_1_0) : (⟨S10x320, .f32⟩ : BufTy).Contents (Elt F) → (⟨S320x10, .f32⟩ : BufTy).Contents (Elt F)),
    binary main_v19 main_v28 main_v29 ((fun l r => Host.dotGeneral dot_S65536x320_S320x10_S65536x10_1_0_0_1_n_n none l r) : (⟨S65536x320, .f32⟩ : BufTy).Contents (Elt F) → (⟨S320x10, .f32⟩ : BufTy).Contents (Elt F) → (⟨S65536x10, .f32⟩ : BufTy).Contents (Elt F)),
    unary main_arg4 main_v30 (broadcastInDim S1x10 ![1] bcast_S10_S1x10_1 : (⟨S10, .f32⟩ : BufTy).Contents (Elt F) → (⟨S1x10, .f32⟩ : BufTy).Contents (Elt F)),
    unary main_v30 main_v31 (broadcastInDim S65536x10 ![0, 1] bcast_S1x10_S65536x10_0_1 : (⟨S1x10, .f32⟩ : BufTy).Contents (Elt F) → (⟨S65536x10, .f32⟩ : BufTy).Contents (Elt F)),
    binary main_v29 main_v31 main_v32 (addf : (⟨S65536x10, .f32⟩ : BufTy).Contents (Elt F) → (⟨S65536x10, .f32⟩ : BufTy).Contents (Elt F) → (⟨S65536x10, .f32⟩ : BufTy).Contents (Elt F)),
    TRef.nullary (TRef.of (T := ⟨S_, .f32⟩) main_call8_cst) (constant S_ .f32 0xFF800000#32),
    TRef.binary (TRef.of (T := ⟨S65536x10, .f32⟩) main_v32) (TRef.of (T := ⟨S_, .f32⟩) main_call8_cst) (TRef.of (T := ⟨S65536, .f32⟩) main_call8_v0) (fun x v => Host.reduce FloatOps.maximumf x v reducesTo_S65536x10_S65536_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S65536, .f32⟩) main_call8_v1) (broadcastInDim S65536 ![] bcast_S_S65536),
    TRef.binary (TRef.of (T := ⟨S65536, .f32⟩) main_call8_v1) (TRef.of (T := ⟨S65536, .f32⟩) main_call8_v0) (TRef.of (T := ⟨S65536, .f32⟩) main_call8_v2) maximumf,
    TRef.unary (TRef.of (T := ⟨S65536, .f32⟩) main_call8_v2) (TRef.of (T := ⟨S65536x1, .f32⟩) main_call8_v3) (broadcastInDim S65536x1 ![0] bcast_S65536_S65536x1_0),
    TRef.unary (TRef.of (T := ⟨S65536x1, .f32⟩) main_call8_v3) (TRef.of (T := ⟨S65536x10, .f32⟩) main_call8_v4) (broadcastInDim S65536x10 ![0, 1] bcast_S65536x1_S65536x10_0_1),
    TRef.binary (TRef.of (T := ⟨S65536x10, .f32⟩) main_v32) (TRef.of (T := ⟨S65536x10, .f32⟩) main_call8_v4) (TRef.of (T := ⟨S65536x10, .f32⟩) main_call8_v5) subf,
    TRef.unary (TRef.of (T := ⟨S65536x10, .f32⟩) main_call8_v5) (TRef.of (T := ⟨S65536x10, .f32⟩) main_call8_v6) Host.exp,
    TRef.nullary (TRef.of (T := ⟨S_, .f32⟩) main_call8_cst_1) (constant S_ .f32 0x00000000#32),
    TRef.binary (TRef.of (T := ⟨S65536x10, .f32⟩) main_call8_v6) (TRef.of (T := ⟨S_, .f32⟩) main_call8_cst_1) (TRef.of (T := ⟨S65536, .f32⟩) main_call8_v7) (fun x v => Host.reduceAdd x v reducesTo_S65536x10_S65536_d1 h_S_),
    TRef.unary (TRef.of (T := ⟨S65536, .f32⟩) main_call8_v7) (TRef.of (T := ⟨S65536x1, .f32⟩) main_call8_v8) (broadcastInDim S65536x1 ![0] bcast_S65536_S65536x1_0),
    TRef.unary (TRef.of (T := ⟨S65536x1, .f32⟩) main_call8_v8) (TRef.of (T := ⟨S65536x1, .f32⟩) main_call8_v9) Host.log,
    TRef.unary (TRef.of (T := ⟨S65536x1, .f32⟩) main_call8_v9) (TRef.of (T := ⟨S65536x10, .f32⟩) main_call8_v10) (broadcastInDim S65536x10 ![0, 1] bcast_S65536x1_S65536x10_0_1),
    TRef.binary (TRef.of (T := ⟨S65536x10, .f32⟩) main_call8_v5) (TRef.of (T := ⟨S65536x10, .f32⟩) main_call8_v10) (TRef.of (T := ⟨S65536x10, .f32⟩) main_v33) subf ]

set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., ternary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., ternary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 65536 in
/-- Every weakly fair execution of @main terminates with every buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.Mlp.RefOps

end
-- ==== Proof.RefValue.lean ====
/-
  The reference's result buffer after its 86 operations is `refOut` of the launch contents: the operations' results are
  read back one by one, and the stages `refOut` is made of unfold to the same composition.  With it the run is re-posted:
  every weakly fair execution of the reference terminates with the result at `refOut` of the arguments and the arguments
  unchanged.
-/
import proofs.«168160_j71167608094757_2_alg».proof.Proof.RefOps
import proofs.«168160_j71167608094757_2_alg».proof.Proof.RefTerm

noncomputable section

namespace Cert.Mlp.RefValue

open Cert.ReferenceIdeal Cert.ReferenceIdeal.Gen Idealize.ShloMosaic Idealize.ShloMosaic.TcCoe Idealize.SL.Sem Idealize.ShloMosaic.StableHlo Cert.Mlp.Ref Cert.Mlp.RefOps

variable {F : FTy → Type} [FloatOps F]

set_option maxRecDepth 1000000 in
set_option maxHeartbeats 40000000 in
/-- The result buffer after the operations. -/
theorem after_v33 (V : Valuation τ sig (Elt F)) :
    after ops V (Proc.devRef .tc main_v33)
      = refOut (F := F) (V (Proc.devRef .tc main_arg0)) (V (Proc.devRef .tc main_arg1)) (V (Proc.devRef .tc main_arg2)) (V (Proc.devRef .tc main_arg3)) (V (Proc.devRef .tc main_arg4)) := by
  after_results_simp
  simp only [refOut, lsmV, shiftedV, logitsV, hpreV, ternV, clipV, splat, alongRows, asColumn, id_eq, TRef.toBuf, TRef.ofBuf, cast_eq]
    <;> rfl

set_option maxRecDepth 65536 in
/-- No operation writes an argument. -/
theorem after_arg0 (V : Valuation τ sig (Elt F)) : after ops V (Proc.devRef .tc main_arg0) = V (Proc.devRef .tc main_arg0) := by
  after_results_simp
set_option maxRecDepth 65536 in
theorem after_arg1 (V : Valuation τ sig (Elt F)) : after ops V (Proc.devRef .tc main_arg1) = V (Proc.devRef .tc main_arg1) := by
  after_results_simp
set_option maxRecDepth 65536 in
theorem after_arg2 (V : Valuation τ sig (Elt F)) : after ops V (Proc.devRef .tc main_arg2) = V (Proc.devRef .tc main_arg2) := by
  after_results_simp
set_option maxRecDepth 65536 in
theorem after_arg3 (V : Valuation τ sig (Elt F)) : after ops V (Proc.devRef .tc main_arg3) = V (Proc.devRef .tc main_arg3) := by
  after_results_simp
set_option maxRecDepth 65536 in
theorem after_arg4 (V : Valuation τ sig (Elt F)) : after ops V (Proc.devRef .tc main_arg4) = V (Proc.devRef .tc main_arg4) := by
  after_results_simp

/-- The reference's run: the result at `refOut` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v33).trans (after_v33 _),
      (h c main_arg0).trans (after_arg0 _),
      (h c main_arg1).trans (after_arg1 _),
      (h c main_arg2).trans (after_arg2 _),
      (h c main_arg3).trans (after_arg3 _),
      (h c main_arg4).trans (after_arg4 _)⟩)
    (run_after m ρ)

end Cert.Mlp.RefValue

end
-- ==== Proof.lean ====
/-
  The kernel computes a two-layer ternary network followed by a log-softmax, one block of 2048 rows per grid point; the
  reference computes the same network on the whole [65536, 784] input.  Both are shown to end with ONE array, `Cert.Mlp.G`:
  entry (r, n) is `rowOut` of row `r` of `x` under the quantized weights (Proof/RowSpec.lean, Proof/WholeSpec.lean).

  * Kernel side: a grid point's block at (p, n) is `rowOut` of row `p` of its `x` block (Proof/KernelRow.lean); the arrays the
    region stages are `x`, the quantized weights and the biases (Proof/HostPrefix.lean); the 32 blocks cover the result
    (Proof/Blocks.lean).  The kernel's first matrix product is computed twice, with `x` and with the residual `x − x`, and
    the two are added: the residual is zero, and its product with it, exactly when `x` holds real numbers — the one use of the
    precondition (Proof/FiniteX.lean reads it off `finite_inputs`).
  * Reference side: its 86 host operations compose to `refOut` (Proof/RefOps.lean, Proof/RefValue.lean), which at (r, n) is
    `rowOut` of row `r` of `x` (Proof/RefTerm.lean); its extra `max` of the row maximum with `-∞` is the identity.
  * The three frames are the generated frame runs (the reference's is its run with the result dropped), and the one ledger
    entry — a narrowing to bf16 and back replaced by the identity — is that rule's statement.
-/
import proofs.«168160_j71167608094757_2_alg».proof.Defs
import proofs.«168160_j71167608094757_2_alg».proof.Proof.Gen.Kernel
import proofs.«168160_j71167608094757_2_alg».proof.Proof.Gen.Kernel.Skeleton
import proofs.«168160_j71167608094757_2_alg».proof.Proof.Gen.Kernel.Launch
import proofs.«168160_j71167608094757_2_alg».proof.Proof.Gen.Kernel.Points
import proofs.«168160_j71167608094757_2_alg».proof.Proof.Gen.Kernel.Frame
import proofs.«168160_j71167608094757_2_alg».proof.Proof.Gen.KernelIdeal
import proofs.«168160_j71167608094757_2_alg».proof.Proof.Gen.KernelIdeal.Skeleton
import proofs.«168160_j71167608094757_2_alg».proof.Proof.Gen.KernelIdeal.Launch
import proofs.«168160_j71167608094757_2_alg».proof.Proof.Gen.KernelIdeal.Points
import proofs.«168160_j71167608094757_2_alg».proof.Proof.Gen.KernelIdeal.Frame
import proofs.«168160_j71167608094757_2_alg».proof.Proof.Gen.KernelIdeal.Value
import proofs.«168160_j71167608094757_2_alg».proof.Proof.Gen.ReferenceIdeal
import proofs.«168160_j71167608094757_2_alg».proof.Proof.Gen.Pre_finite_inputs
import proofs.«168160_j71167608094757_2_alg».proof.Proof.FiniteX
import proofs.«168160_j71167608094757_2_alg».proof.Proof.WholeSpec
import proofs.«168160_j71167608094757_2_alg».proof.Proof.Blocks
import proofs.«168160_j71167608094757_2_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Mlp.RefValue.run (F := Ideal) m ρ)

/-- The ledger's one entry: narrowing a [2048, 784] f32 block to bf16 and widening it back is the identity on the extended
    reals, and the rounding through bf16 on words. -/
theorem preserves : Cert.preserves_Kernel_KernelIdeal :=
  IdealRules.truncf_extf.statement _ .f32 .bf16

/-- Both programs end with `G` of the arguments: the kernel by its blocks (for an `x` of real numbers, which the precondition
    gives), the reference by its composed term read index by index. -/
theorem algebraic : Cert.algebraic_KernelIdeal_ReferenceIdeal := by
  intro m ρ m' ρ' hpre hagree
  have hfin : ∀ (c : Dev Cert.KernelIdeal.nD) (i : Cert.KernelIdeal.S65536x784.Idx), ∃ r : ℝ, (m ((c.tc : Thread Cert.KernelIdeal.nD Cert.KernelIdeal.τ).loc Cert.KernelIdeal.main_arg0)) i = (r : EReal) :=
    fun c => Cert.Mlp.Finite.x_finite _ _ _ _ _ (hpre c)
  refine ⟨fun c => Cert.Mlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Mlp.Blocks.run m ρ hfin, ?_⟩
  refine (θ_run Cert.ReferenceIdeal.defs _ _).mono (fun _ h c => ⟨(h c).1.trans ?_, (h c).2⟩)
    (Cert.Mlp.RefValue.run (F := Ideal) m' ρ')
  rw [(hagree c).1, (hagree c).2.1, (hagree c).2.2.1, (hagree c).2.2.2.1, (hagree c).2.2.2.2]
  funext i
  obtain ⟨r, n, rfl⟩ : ∃ (r : Fin 65536) (n : Fin 10), i = ix2 r n := ⟨i 0, i 1, eq_ix2 i⟩
  exact (Cert.Mlp.Ref.refOut_apply _ _ _ _ _ r n).trans (Cert.Mlp.G_apply _ _ _ _ _ r n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
